-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x512 : Shape := ⟨2, ![512, 512]⟩
abbrev S512 : Shape := ⟨1, ![512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part5 {F : FTy → Type} [FloatOps F] (main_arg18 : FVec F S512x512 .f32) (main_v83 : IVec S_ 1) (main_v84 : FVec F S512x512 .f32) (main_cst_32 : FVec F S_ .f32) : IVec S_ 1 :=
  let main_v85 : FVec F S512x512 .f32 := broadcastInDim S512x512 ![] bcast_S_S512x512 main_cst_32
  let main_v86 : IVec S512x512 1 := cmpf .olt main_v84 main_v85
  let main_c_33 : IVec S_ 1 := constantI S_ 1 1#1
  let main_v87 : IVec S_ 1 := (fun x v => Host.reduce IntOp.andi x v reducesTo_S512x512_S_d0_1 h_S_) main_v86 main_c_33
  let main_v88 : IVec S_ 1 := andi main_v83 main_v87
  let main_v89 : FVec F S512x512 .f32 := Host.absf main_arg18
  let main_cst_34 : FVec F S_ .f32 := constant S_ .f32 0x7F800000#32
  let main_v90 : FVec F S512x512 .f32 := broadcastInDim S512x512 ![] bcast_S_S512x512 main_cst_34
  let main_v91 : IVec S512x512 1 := cmpf .olt main_v89 main_v90
  let main_c_35 : IVec S_ 1 := constantI S_ 1 1#1
  let main_v92 : IVec S_ 1 := (fun x v => Host.reduce IntOp.andi x v reducesTo_S512x512_S_d0_1 h_S_) main_v91 main_c_35
  let main_v93 : IVec S_ 1 := andi main_v88 main_v92
  main_v93

def fn_part4 {F : FTy → Type} [FloatOps F] (main_arg14 : FVec F S512x512 .f32) (main_arg15 : FVec F S512x512 .f32) (main_arg16 : FVec F S512x512 .f32) (main_arg17 : FVec F S512x512 .f32) (main_arg18 : FVec F S512x512 .f32) (main_v63 : IVec S_ 1) (main_v67 : IVec S_ 1) : IVec S_ 1 :=
  let main_v68 : IVec S_ 1 := andi main_v63 main_v67
  let main_v69 : FVec F S512x512 .f32 := Host.absf main_arg14
  let main_cst_26 : FVec F S_ .f32 := constant S_ .f32 0x7F800000#32
  let main_v70 : FVec F S512x512 .f32 := broadcastInDim S512x512 ![] bcast_S_S512x512 main_cst_26
  let main_v71 : IVec S512x512 1 := cmpf .olt main_v69 main_v70
  let main_c_27 : IVec S_ 1 := constantI S_ 1 1#1
  let main_v72 : IVec S_ 1 := (fun x v => Host.reduce IntOp.andi x v reducesTo_S512x512_S_d0_1 h_S_) main_v71 main_c_27
  let main_v73 : IVec S_ 1 := andi main_v68 main_v72
  let main_v74 : FVec F S512x512 .f32 := Host.absf main_arg15
  let main_cst_28 : FVec F S_ .f32 := constant S_ .f32 0x7F800000#32
  let main_v75 : FVec F S512x512 .f32 := broadcastInDim S512x512 ![] bcast_S_S512x512 main_cst_28
  let main_v76 : IVec S512x512 1 := cmpf .olt main_v74 main_v75
  let main_c_29 : IVec S_ 1 := constantI S_ 1 1#1
  let main_v77 : IVec S_ 1 := (fun x v => Host.reduce IntOp.andi x v reducesTo_S512x512_S_d0_1 h_S_) main_v76 main_c_29
  let main_v78 : IVec S_ 1 := andi main_v73 main_v77
  let main_v79 : FVec F S512x512 .f32 := Host.absf main_arg16
  let main_cst_30 : FVec F S_ .f32 := constant S_ .f32 0x7F800000#32
  let main_v80 : FVec F S512x512 .f32 := broadcastInDim S512x512 ![] bcast_S_S512x512 main_cst_30
  let main_v81 : IVec S512x512 1 := cmpf .olt main_v79 main_v80
  let main_c_31 : IVec S_ 1 := constantI S_ 1 1#1
  let main_v82 : IVec S_ 1 := (fun x v => Host.reduce IntOp.andi x v reducesTo_S512x512_S_d0_1 h_S_) main_v81 main_c_31
  let main_v83 : IVec S_ 1 := andi main_v78 main_v82
  let main_v84 : FVec F S512x512 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S512x512 .f32) (main_arg12 : FVec F S512x512 .f32) (main_arg13 : FVec F S512x512 .f32) (main_arg14 : FVec F S512x512 .f32) (main_arg15 : FVec F S512x512 .f32) (main_arg16 : FVec F S512x512 .f32) (main_arg17 : FVec F S512x512 .f32) (main_arg18 : FVec F S512x512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512x512 .f32 := Host.absf main_arg13
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg14 main_arg15 main_arg16 main_arg17 main_arg18 main_v63 main_v67

def fn_part2 {F : FTy → Type} [FloatOps F] (main_arg7 : FVec F S512x512 .f32) (main_arg8 : FVec F S512 .f32) (main_arg9 : FVec F S512x512 .f32) (main_arg10 : FVec F S512 .f32) (main_arg11 : FVec F S512x512 .f32) (main_arg12 : FVec F S512x512 .f32) (main_arg13 : FVec F S512x512 .f32) (main_arg14 : FVec F S512x512 .f32) (main_arg15 : FVec F S512x512 .f32) (main_arg16 : FVec F S512x512 .f32) (main_arg17 : FVec F S512x512 .f32) (main_arg18 : FVec F S512x512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_arg17 main_arg18 main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512x512 .f32) (main_arg13 : FVec F S512x512 .f32) (main_arg14 : FVec F S512x512 .f32) (main_arg15 : FVec F S512x512 .f32) (main_arg16 : FVec F S512x512 .f32) (main_arg17 : FVec F S512x512 .f32) (main_arg18 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S65536x512 .f32) (main_arg1 : FVec F S65536x512 .f32) (main_arg2 : FVec F S65536x512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512x512 .f32) (main_arg13 : FVec F S512x512 .f32) (main_arg14 : FVec F S512x512 .f32) (main_arg15 : FVec F S512x512 .f32) (main_arg16 : FVec F S512x512 .f32) (main_arg17 : FVec F S512x512 .f32) (main_arg18 : FVec F S512x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  let main_v9 : FVec F S65536x512 .f32 := Host.absf main_arg2
  let main_cst_2 : FVec F S_ .f32 := constant S_ .f32 0x7F800000#32
  let main_v10 : FVec F S65536x512 .f32 := broadcastInDim S65536x512 ![] bcast_S_S65536x512 main_cst_2
  let main_v11 : IVec S65536x512 1 := cmpf .olt main_v9 main_v10
  let main_c_3 : IVec S_ 1 := constantI S_ 1 1#1
  let main_v12 : IVec S_ 1 := (fun x v => Host.reduce IntOp.andi x v reducesTo_S65536x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S65536x512 : Shape := ⟨2, ![65536, 512]⟩
abbrev S512x512 : Shape := ⟨2, ![512, 512]⟩
abbrev S512 : Shape := ⟨1, ![512]⟩
abbrev S2048x512 : Shape := ⟨2, ![2048, 512]⟩
abbrev S512x2048 : Shape := ⟨2, ![512, 2048]⟩
abbrev S2048 : Shape := ⟨1, ![2048]⟩
abbrev S1x2048 : Shape := ⟨2, ![1, 2048]⟩
abbrev S1536x512 : Shape := ⟨2, ![1536, 512]⟩
abbrev S512x1536 : Shape := ⟨2, ![512, 1536]⟩

abbrev nBuf : Space → Nat
  | .hbm => 35
  | .vmem => 14
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S65536x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S2048x512, .f32⟩
  | .hbm, ⟨20, _⟩ => ⟨S512x2048, .f32⟩
  | .hbm, ⟨21, _⟩ => ⟨S512x2048, .bf16⟩
  | .hbm, ⟨22, _⟩ => ⟨S2048, .f32⟩
  | .hbm, ⟨23, _⟩ => ⟨S1x2048, .f32⟩
  | .hbm, ⟨24, _⟩ => ⟨S1536x512, .f32⟩
  | .hbm, ⟨25, _⟩ => ⟨S512x1536, .f32⟩
  | .hbm, ⟨26, _⟩ => ⟨S512x1536, .bf16⟩
  | .hbm, ⟨27, _⟩ => ⟨S1536x512, .f32⟩
  | .hbm, ⟨28, _⟩ => ⟨S512x1536, .f32⟩
  | .hbm, ⟨29, _⟩ => ⟨S512x1536, .bf16⟩
  | .hbm, ⟨30, _⟩ => ⟨S512x512, .f32⟩
  | .hbm, ⟨31, _⟩ => ⟨S512x512, .bf16⟩
  | .hbm, ⟨32, _⟩ => ⟨S512x512, .f32⟩
  | .hbm, ⟨33, _⟩ => ⟨S512x512, .bf16⟩
  | .hbm, ⟨34, _⟩ => ⟨S65536x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | .local _ .vmem, ⟨7, _⟩ => ⟨S1x2048, .f32⟩
  | .local _ .vmem, ⟨8, _⟩ => ⟨S512x1536, .bf16⟩
  | .local _ .vmem, ⟨9, _⟩ => ⟨S512x1536, .bf16⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  concatenates_S512x512_S512x512_S512x512_S512x512_S2048x512_d0 : Shape.Concatenates [S512x512, S512x512, S512x512, S512x512] S2048x512 0
  transposes_S2048x512_S512x2048_1_0 : S2048x512.Transposes [1, 0] S512x2048
  bitsLt_bf16_f32 : FTy.bits .bf16 < FTy.bits .f32
  concatenates_S512_S512_S512_S512_S2048_d0 : Shape.Concatenates [S512, S512, S512, S512] S2048 0
  shapeCasts_S2048_S1x2048 : S2048.ShapeCasts S1x2048
  concatenates_S512x512_S512x512_S512x512_S1536x512_d0 : Shape.Concatenates [S512x512, S512x512, S512x512] S1536x512 0
  transposes_S1536x512_S512x1536_1_0 : S1536x512.Transposes [1, 0] S512x1536
  transposes_S512x512_S512x512_1_0 : S512x512.Transposes [1, 0] S512x512
  inb_S512x512_S512x512_0_0 : ∀ a, (![0, 0] : Fin 2 → Nat) a + S512x512.size a ≤ S512x512.size a
  h_S512x512 : 0 < S512x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  slices_S512x2048_o0_0_S512x512 : S512x2048.Slices ![0, 0] S512x512
  slices_S512x1536_o0_0_S512x512 : S512x1536.Slices ![0, 0] S512x512
  slices_S512x2048_o0_512_S512x512 : S512x2048.Slices ![0, 512] S512x512
  slices_S512x1536_o0_512_S512x512 : S512x1536.Slices ![0, 512] S512x512
  slices_S512x2048_o0_1024_S512x512 : S512x2048.Slices ![0, 1024] S512x512
  slices_S512x1536_o0_1024_S512x512 : S512x1536.Slices ![0, 1024] S512x512
  slices_S512x2048_o0_1536_S512x512 : S512x2048.Slices ![0, 1536] S512x512
  shapeCasts_S512x512_S512x512 : S512x512.ShapeCasts S512x512
  dot_S512x512_S512x2048_S512x2048_1_0_0_1_n_n_wf : DotDims.WF S512x512 S512x2048 S512x2048 [1] [0] [0] [1] [] []
  dot_S512x512_S512x1536_S512x1536_1_0_0_1_n_n_wf : DotDims.WF S512x512 S512x1536 S512x1536 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S65536x512.size a
  hwx0_0 : ∀ i : grid0.Coords, EltTy.bits .f32 = 32 ∨ (Rect.block (s := S65536x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S65536x512.size a
  hwx0_1 : ∀ i : grid0.Coords, EltTy.bits .f32 = 32 ∨ (Rect.block (s := S65536x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S65536x512.size a
  hwx0_2 : ∀ i : grid0.Coords, EltTy.bits .f32 = 32 ∨ (Rect.block (s := S65536x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .bf16 = 32 ∨ (Rect.block (s := S512x2048) S512x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1536.size a ≤ S512x1536.size a
  hwx0_5 : ∀ i : grid0.Coords, EltTy.bits .bf16 = 32 ∨ (Rect.block (s := S512x1536) S512x1536.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1536.size a ≤ S512x1536.size a
  hwx0_6 : ∀ i : grid0.Coords, EltTy.bits .bf16 = 32 ∨ (Rect.block (s := S512x1536) S512x1536.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S65536x512.size a
  hwx0_9 : ∀ i : grid0.Coords, EltTy.bits .f32 = 32 ∨ (Rect.block (s := S65536x512) S512x512.size (cc0_transform_9 i) (hinb0_9 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S512x1536.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S512x1536.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S512x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S65536x512 : Shape := ⟨2, ![65536, 512]⟩
abbrev S512x512 : Shape := ⟨2, ![512, 512]⟩
abbrev S512 : Shape := ⟨1, ![512]⟩
abbrev S1x512 : Shape := ⟨2, ![1, 512]⟩
abbrev S_ : Shape := ⟨0, ![]⟩

abbrev nBuf : Space → Nat
  | .hbm => 96
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S65536x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S512x512, .f32⟩
  | .hbm, ⟨20, _⟩ => ⟨S65536x512, .f32⟩
  | .hbm, ⟨21, _⟩ => ⟨S1x512, .f32⟩
  | .hbm, ⟨22, _⟩ => ⟨S65536x512, .f32⟩
  | .hbm, ⟨23, _⟩ => ⟨S65536x512, .f32⟩
  | .hbm, ⟨24, _⟩ => ⟨S512x512, .f32⟩
  | .hbm, ⟨25, _⟩ => ⟨S65536x512, .f32⟩
  | .hbm, ⟨26, _⟩ => ⟨S65536x512, .f32⟩
  | .hbm, ⟨27, _⟩ => ⟨S512x512, .f32⟩
  | .hbm, ⟨28, _⟩ => ⟨S65536x512, .f32⟩
  | .hbm, ⟨29, _⟩ => ⟨S65536x512, .f32⟩
  | .hbm, ⟨30, _⟩ => ⟨S65536x512, .f32⟩
  | .hbm, ⟨31, _⟩ => ⟨S65536x512, .f32⟩
  | .hbm, ⟨32, _⟩ => ⟨S_, .f32⟩
  | .hbm, ⟨33, _⟩ => ⟨S65536x512, .f32⟩
  | .hbm, ⟨34, _⟩ => ⟨S65536x512, .f32⟩
  | .hbm, ⟨35, _⟩ => ⟨S_, .f32⟩
  | .hbm, ⟨36, _⟩ => ⟨S65536x512, .f32⟩
  | .hbm, ⟨37, _⟩ => ⟨S65536x512, .f32⟩
  | .hbm, ⟨38, _⟩ => ⟨S512x512, .f32⟩
  | .hbm, ⟨39, _⟩ => ⟨S65536x512, .f32⟩
  | .hbm, ⟨40, _⟩ => ⟨S1x512, .f32⟩
  | .hbm, ⟨41, _⟩ => ⟨S65536x512, .f32⟩
  | .hbm, ⟨42, _⟩ => ⟨S65536x512, .f32⟩
  | .hbm, ⟨43, _⟩ => ⟨S512x512, .f32⟩
  | .hbm, ⟨44, _⟩ => ⟨S65536x512, .f32⟩
  | .hbm, ⟨45, _⟩ => ⟨S65536x512, .f32⟩
  | .hbm, ⟨46, _⟩ => ⟨S512x512, .f32⟩
  | .hbm, ⟨47, _⟩ => ⟨S65536x512, .f32⟩
  | .hbm, ⟨48, _⟩ => ⟨S65536x512, .f32⟩
  | .hbm, ⟨49, _⟩ => ⟨S65536x512, .f32⟩
  | .hbm, ⟨50, _⟩ => ⟨S65536x512, .f32⟩
  | .hbm, ⟨51, _⟩ => ⟨S_, .f32⟩
  | .hbm, ⟨52, _⟩ => ⟨S65536x512, .f32⟩
  | .hbm, ⟨53, _⟩ => ⟨S65536x512, .f32⟩
  | .hbm, ⟨54, _⟩ => ⟨S_, .f32⟩
  | .hbm, ⟨55, _⟩ => ⟨S65536x512, .f32⟩
  | .hbm, ⟨56, _⟩ => ⟨S65536x512, .f32⟩
  | .hbm, ⟨57, _⟩ => ⟨S512x512, .f32⟩
  | .hbm, ⟨58, _⟩ => ⟨S65536x512, .f32⟩
  | .hbm, ⟨59, _⟩ => ⟨S1x512, .f32⟩
  | .hbm, ⟨60, _⟩ => ⟨S65536x512, .f32⟩
  | .hbm, ⟨61, _⟩ => ⟨S65536x512, .f32⟩
  | .hbm, ⟨62, _⟩ => ⟨S512x512, .f32⟩
  | .hbm, ⟨63, _⟩ => ⟨S65536x512, .f32⟩
  | .hbm, ⟨64, _⟩ => ⟨S65536x512, .f32⟩
  | .hbm, ⟨65, _⟩ => ⟨S512x512, .f32⟩
  | .hbm, ⟨66, _⟩ => ⟨S65536x512, .f32⟩
  | .hbm, ⟨67, _⟩ => ⟨S65536x512, .f32⟩
  | .hbm, ⟨68, _⟩ => ⟨S65536x512, .f32⟩
  | .hbm, ⟨69, _⟩ => ⟨S65536x512, .f32⟩
  | .hbm, ⟨70, _⟩ => ⟨S_, .f32⟩
  | .hbm, ⟨71, _⟩ => ⟨S65536x512, .f32⟩
  | .hbm, ⟨72, _⟩ => ⟨S65536x512, .f32⟩
  | .hbm, ⟨73, _⟩ => ⟨S_, .f32⟩
  | .hbm, ⟨74, _⟩ => ⟨S65536x512, .f32⟩
  | .hbm, ⟨75, _⟩ => ⟨S65536x512, .f32⟩
  | .hbm, ⟨76, _⟩ => ⟨S512x512, .f32⟩
  | .hbm, ⟨77, _⟩ => ⟨S65536x512, .f32⟩
  | .hbm, ⟨78, _⟩ => ⟨S1x512, .f32⟩
  | .hbm, ⟨79, _⟩ => ⟨S65536x512, .f32⟩
  | .hbm, ⟨80, _⟩ => ⟨S65536x512, .f32⟩
  | .hbm, ⟨81, _⟩ => ⟨S65536x512, .f32⟩
  | .hbm, ⟨82, _⟩ => ⟨S512x512, .f32⟩
  | .hbm, ⟨83, _⟩ => ⟨S65536x512, .f32⟩
  | .hbm, ⟨84, _⟩ => ⟨S65536x512, .f32⟩
  | .hbm, ⟨85, _⟩ => ⟨S65536x512, .f32⟩
  | .hbm, ⟨86, _⟩ => ⟨S512x512, .f32⟩
  | .hbm, ⟨87, _⟩ => ⟨S65536x512, .f32⟩
  | .hbm, ⟨88, _⟩ => ⟨S65536x512, .f32⟩
  | .hbm, ⟨89, _⟩ => ⟨S65536x512, .f32⟩
  | .hbm, ⟨90, _⟩ => ⟨S65536x512, .f32⟩
  | .hbm, ⟨91, _⟩ => ⟨S_, .f32⟩
  | .hbm, ⟨92, _⟩ => ⟨S65536x512, .f32⟩
  | .hbm, ⟨93, _⟩ => ⟨S65536x512, .f32⟩
  | .hbm, ⟨94, _⟩ => ⟨S65536x512, .f32⟩
  | .hbm, ⟨95, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_1 : Ref sig .tc := ⟨.hbm, 51, rfl⟩
abbrev main_v30 : Ref sig .tc := ⟨.hbm, 52, rfl⟩
abbrev main_v31 : Ref sig .tc := ⟨.hbm, 53, rfl⟩
abbrev main_cst_2 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_3 : Ref sig .tc := ⟨.hbm, 70, rfl⟩
abbrev main_v47 : Ref sig .tc := ⟨.hbm, 71, rfl⟩
abbrev main_v48 : Ref sig .tc := ⟨.hbm, 72, rfl⟩
abbrev main_cst_4 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_5 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  dot_S65536x512_S512x512_S65536x512_1_0_0_1_n_n_wf : DotDims.WF S65536x512 S512x512 S65536x512 [1] [0] [0] [1] [] []

variable [Facts₀]

def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf

class Facts : Prop extends Facts₀ where

variable [Facts]
-- ==== Proof.FrameK.lean ====
import proofs.«174785_j34900904247524_2_alg».proof.Proof.Gen.Kernel.Launch
import proofs.«174785_j34900904247524_2_alg».proof.Proof.Gen.Kernel.Skeleton
import proofs.«174785_j34900904247524_2_alg».proof.Proof.Gen.Kernel.Points
import Idealize.ShloMosaic.Lib.Pipeline.FrameBody
import Idealize.ShloMosaic.Lib.Ring
import Idealize.ShloMosaic.Lib.Tactic

/-!
# The run of the program: host re-layings, then one pipelined region over 128 row blocks

@main first lays the twelve weight matrices out for the kernel — four (three, one) of them stacked along
their rows, transposed and narrowed; the four bias vectors joined into one row — and then runs the region:
at grid point `t` the body reads rows `512·t … 512·t+511` of the three activation arrays and the whole of
each weight table, and stores one whole `512 × 512` block of the result. Nothing is carried from a point to
the next, so the proof data is plain: each input window's buffer holds its block of the array as the region
finds it, the output window's buffer holds the body's one store over those blocks.

This module states what the region finds (`V`: the memory after the host re-layings, the nineteen argument
arrays untouched by them), the body's triple, the proof data, the body obligation, the run with every array
named, and from it the frame: the program terminates, faults nowhere, and leaves its arguments unchanged.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the fifteen host re-layings. -/
abbrev V (c : Dev nD) (b : Ref sig .tc) : Buf (Elt F) ((c : Thread nD τ).loc b) := StableHlo.after hostOps0 (fun b => m (c, b)) b

/-- None of the host re-layings allocates. -/
theorem hostOps0_fresh : (hostOps0 : List (HloOp τ sig (Elt F))).Forall fun op => op.fresh = ∅ := by
  simp only [List.Forall]; repeat' constructor

/-- @main is the host re-layings followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current buffer holds its block at every point, whether the point fetches it (the three
activation windows, at every point) or not (the six weight windows, fetched once: their block index never moves). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame from a run that names every array -/

/-- A run ending with every window's array at what the proof data computes and every other buffer as the region
    found it leaves the nineteen arguments as launched: three are read-only windows, sixteen are staged by no window,
    and no host re-laying writes any of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## The body's accesses: every load and the one store take a whole buffer -/

abbrev rA : Rect S512x512 := Rect.unit (s := S512x512) ![0, 0] S512x512.size inb_S512x512_S512x512_0_0
abbrev rB : Rect S512x2048 := Rect.unit (s := S512x2048) ![0, 0] S512x2048.size inb_S512x2048_S512x2048_0_0
abbrev rC : Rect S1x2048 := Rect.unit (s := S1x2048) ![0, 0] S1x2048.size inb_S1x2048_S1x2048_0_0
abbrev rD : Rect S512x1536 := Rect.unit (s := S512x1536) ![0, 0] S512x1536.size inb_S512x1536_S512x1536_0_0

/-- What the body leaves in the output window's buffer, from the nine input blocks: its one store. -/
def out0_9 (x0 : Vec F S512x512 .f32) (x1 : Vec F S512x512 .f32) (x2 : Vec F S512x512 .f32) (x3 : Vec F S512x2048 .bf16) (x4 : Vec F S1x2048 .f32) (x5 : Vec F S512x1536 .bf16) (x6 : Vec F S512x1536 .bf16) (x7 : Vec F S512x512 .bf16) (x8 : Vec F S512x512 .bf16) : Vec F S512x512 .f32 :=
  View.canon [⟨rA, k0_pay1 (View.ld x1 rA) (k0_pay5 (View.ld x1 rA) (View.ld x2 rA) (View.ld x0 rA) (View.ld x3 rB) (View.ld x4 rC) (View.ld x5 rD) (View.ld x6 rD)) (k0_pay6 (View.ld x1 rA) (View.ld x2 rA) (View.ld x0 rA) (View.ld x3 rB) (View.ld x4 rC) (View.ld x5 rD) (View.ld x6 rD)) (k0_pay7 (View.ld x1 rA) (View.ld x2 rA) (View.ld x0 rA) (View.ld x3 rB) (View.ld x4 rC) (View.ld x5 rD) (View.ld x6 rD)) (k0_pay8 (View.ld x0 rA) (View.ld x3 rB) (View.ld x4 rC)) (View.ld x7 rA) (View.ld x8 rA)⟩]

/-- The one store covers the buffer. -/
theorem cover0_9 (p0 : Vec F S512x512 .f32) (y : S512x512.Idx) :
    ∃ pc ∈ ([⟨rA, p0⟩] : List (View.Piece (Elt F) S512x512 .f32)), y ∈ pc.1.set :=
  View.cover_of_tiled [⟨rA, p0⟩] S512x512.size (by rfl) y

/-! ## The body's triple -/

set_option maxHeartbeats 4000000 in
/-- On whole buffers, the nine inputs' at contents `x0 … x8` and the output's at anything, the body runs to the
    continuation holding the inputs' as they were and the output's at `out0_9` of them. -/
theorem sound_kernel (c : Dev nD) (E : Set ℕ) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S512x1536 .bf16) (harg6 : arg6.IsWhole) (arg7 : Memref sig .tc .vmem S512x1536 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .f32) (harg10 : arg10.IsWhole)
    (x0 : Vec F S512x512 .f32) (x1 : Vec F S512x512 .f32) (x2 : Vec F S512x512 .f32) (x3 : Vec F S512x2048 .bf16) (x4 : Vec F S1x2048 .f32) (x5 : Vec F S512x1536 .bf16) (x6 : Vec F S512x1536 .bf16) (x7 : Vec F S512x512 .bf16) (x8 : Vec F S512x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8 arg9 harg9 arg10 harg10) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover0_9 _)

/-! ## The proof data -/

/-- The arrays as the region finds them; after the body at point `t` each input's buffer at its block and the output's
    at the body's store over the input blocks; the invariant the untouched scoped rest and generator register; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The body at any point: the inputs' buffers hold their blocks, so the triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and its nineteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Hand

end
-- ==== Proof.FrameKI.lean ====
import proofs.«174785_j34900904247524_2_alg».proof.Proof.Gen.KernelIdeal.Launch
import proofs.«174785_j34900904247524_2_alg».proof.Proof.Gen.KernelIdeal.Skeleton
import proofs.«174785_j34900904247524_2_alg».proof.Proof.Gen.KernelIdeal.Points
import Idealize.ShloMosaic.Lib.Pipeline.FrameBody
import Idealize.ShloMosaic.Lib.Ring
import Idealize.ShloMosaic.Lib.Tactic

/-!
# The run of the program: host re-layings, then one pipelined region over 128 row blocks

@main first lays the twelve weight matrices out for the kernel — four (three, one) of them stacked along
their rows, transposed and narrowed; the four bias vectors joined into one row — and then runs the region:
at grid point `t` the body reads rows `512·t … 512·t+511` of the three activation arrays and the whole of
each weight table, and stores one whole `512 × 512` block of the result. Nothing is carried from a point to
the next, so the proof data is plain: each input window's buffer holds its block of the array as the region
finds it, the output window's buffer holds the body's one store over those blocks.

This module states what the region finds (`V`: the memory after the host re-layings, the nineteen argument
arrays untouched by them), the body's triple, the proof data, the body obligation, the run with every array
named, and from it the frame: the program terminates, faults nowhere, and leaves its arguments unchanged.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the fifteen host re-layings. -/
abbrev V (c : Dev nD) (b : Ref sig .tc) : Buf (Elt F) ((c : Thread nD τ).loc b) := StableHlo.after hostOps0 (fun b => m (c, b)) b

/-- None of the host re-layings allocates. -/
theorem hostOps0_fresh : (hostOps0 : List (HloOp τ sig (Elt F))).Forall fun op => op.fresh = ∅ := by
  simp only [List.Forall]; repeat' constructor

/-- @main is the host re-layings followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current buffer holds its block at every point, whether the point fetches it (the three
activation windows, at every point) or not (the six weight windows, fetched once: their block index never moves). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame from a run that names every array -/

/-- A run ending with every window's array at what the proof data computes and every other buffer as the region
    found it leaves the nineteen arguments as launched: three are read-only windows, sixteen are staged by no window,
    and no host re-laying writes any of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## The body's accesses: every load and the one store take a whole buffer -/

abbrev rA : Rect S512x512 := Rect.unit (s := S512x512) ![0, 0] S512x512.size inb_S512x512_S512x512_0_0
abbrev rB : Rect S512x2048 := Rect.unit (s := S512x2048) ![0, 0] S512x2048.size inb_S512x2048_S512x2048_0_0
abbrev rC : Rect S1x2048 := Rect.unit (s := S1x2048) ![0, 0] S1x2048.size inb_S1x2048_S1x2048_0_0
abbrev rD : Rect S512x1536 := Rect.unit (s := S512x1536) ![0, 0] S512x1536.size inb_S512x1536_S512x1536_0_0

/-- What the body leaves in the output window's buffer, from the nine input blocks: its one store. -/
def out0_9 (x0 : Vec F S512x512 .f32) (x1 : Vec F S512x512 .f32) (x2 : Vec F S512x512 .f32) (x3 : Vec F S512x2048 .bf16) (x4 : Vec F S1x2048 .f32) (x5 : Vec F S512x1536 .bf16) (x6 : Vec F S512x1536 .bf16) (x7 : Vec F S512x512 .bf16) (x8 : Vec F S512x512 .bf16) : Vec F S512x512 .f32 :=
  View.canon [⟨rA, k0_pay1 (View.ld x1 rA) (k0_pay5 (View.ld x1 rA) (View.ld x2 rA) (View.ld x0 rA) (View.ld x3 rB) (View.ld x4 rC) (View.ld x5 rD) (View.ld x6 rD)) (k0_pay6 (View.ld x1 rA) (View.ld x2 rA) (View.ld x0 rA) (View.ld x3 rB) (View.ld x4 rC) (View.ld x5 rD) (View.ld x6 rD)) (k0_pay7 (View.ld x1 rA) (View.ld x2 rA) (View.ld x0 rA) (View.ld x3 rB) (View.ld x4 rC) (View.ld x5 rD) (View.ld x6 rD)) (k0_pay8 (View.ld x0 rA) (View.ld x3 rB) (View.ld x4 rC)) (View.ld x7 rA) (View.ld x8 rA)⟩]

/-- The one store covers the buffer. -/
theorem cover0_9 (p0 : Vec F S512x512 .f32) (y : S512x512.Idx) :
    ∃ pc ∈ ([⟨rA, p0⟩] : List (View.Piece (Elt F) S512x512 .f32)), y ∈ pc.1.set :=
  View.cover_of_tiled [⟨rA, p0⟩] S512x512.size (by rfl) y

/-! ## The body's triple -/

set_option maxHeartbeats 4000000 in
/-- On whole buffers, the nine inputs' at contents `x0 … x8` and the output's at anything, the body runs to the
    continuation holding the inputs' as they were and the output's at `out0_9` of them. -/
theorem sound_kernel (c : Dev nD) (E : Set ℕ) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S512x1536 .bf16) (harg6 : arg6.IsWhole) (arg7 : Memref sig .tc .vmem S512x1536 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .f32) (harg10 : arg10.IsWhole)
    (x0 : Vec F S512x512 .f32) (x1 : Vec F S512x512 .f32) (x2 : Vec F S512x512 .f32) (x3 : Vec F S512x2048 .bf16) (x4 : Vec F S1x2048 .f32) (x5 : Vec F S512x1536 .bf16) (x6 : Vec F S512x1536 .bf16) (x7 : Vec F S512x512 .bf16) (x8 : Vec F S512x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8 arg9 harg9 arg10 harg10) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover0_9 _)

/-! ## The proof data -/

/-- The arrays as the region finds them; after the body at point `t` each input's buffer at its block and the output's
    at the body's store over the input blocks; the invariant the untouched scoped rest and generator register; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The body at any point: the inputs' buffers hold their blocks, so the triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and its nineteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Hand

end
-- ==== Proof.Cell.lean ====
import Idealize.ShloMosaic.PureOps.Ideal
import Idealize.ShloMosaic.Lib.ValueIdx

/-!
# A gated recurrent cell with a parent state, one output entry at a time

A node of a tree carries an input row `x`, its own state row `s` and its parent's state row `q`, each of 512
entries. Four gates — attention `a`, two reset gates `r` (for the state) and `r'` (for the parent) and the candidate
`c` — each have an input weight matrix with a bias, a state matrix and a parent matrix. With
`pre_g = (x·W_g + b_g) + s·U_g + q·V_g`, the cell is

  a  = σ(pre_a),  r = σ(pre_r),  r' = σ(pre_r'),
  c  = tanh((x·W_c + b_c) + (s ⊙ r)·U_c + (q ⊙ r')·V_c),
  h' = a ⊙ c + (1 − a) ⊙ s,

every product a sum over the 512 inner entries, every sum in the order written. Entries are extended reals and
nothing here needs them finite: both programs form exactly these sums of exactly these products, so no sum is
ever re-associated or distributed.

The rows are indexed by any type `ι` (the 512 rows of one block, or the 65536 rows of the whole batch) and each
weight table is read as `w k j`: inner entry `k`, output unit `j`.
-/

noncomputable section

namespace Cert.TreeGru

open Idealize.ShloMosaic Idealize.ShloMosaic.ValueIdx

/-- The rows of an `R × 512` array. -/
abbrev rows {R : Nat} (x : (⟨2, ![R, 512]⟩ : Shape).Idx → EReal) : Fin R → Fin 512 → EReal := fun r k => x (ix2 r k)

/-- A weight matrix kept output-major (`[out, in]`, as a dense layer stores it), read inner entry first. -/
abbrev outMajor (w : (⟨2, ![512, 512]⟩ : Shape).Idx → EReal) : Fin 512 → Fin 512 → EReal := fun k j => w (ix2 j k)

/-- A bias vector. -/
abbrev vec (b : (⟨1, ![512]⟩ : Shape).Idx → EReal) : Fin 512 → EReal := fun j => b (ix1 j)

variable {ι : Type}

/-- A gate's pre-activation at row `p`, unit `j`: the input product plus its bias, then the state product, then
    the parent product. -/
def pre (xi xs xq : ι → Fin 512 → EReal) (w u v : Fin 512 → Fin 512 → EReal) (b : Fin 512 → EReal)
    (p : ι) (j : Fin 512) : EReal :=
  ((∑ k : Fin 512, xi p k * w k j) + b j) + (∑ k : Fin 512, xs p k * u k j) + (∑ k : Fin 512, xq p k * v k j)

/-- A sigmoid gate. -/
def gate (xi xs xq : ι → Fin 512 → EReal) (w u v : Fin 512 → Fin 512 → EReal) (b : Fin 512 → EReal)
    (p : ι) (j : Fin 512) : EReal :=
  Ideal.logistic (pre xi xs xq w u v b p j)

/-- The new state at row `p`, unit `j`. The gates `a`, `r`, `r'`, `c` take their tables in this order, each as
    input weights, state weights, parent weights, bias (the candidate has no gate of its own on the state and
    parent rows: it reads them reset). -/
def cell (xi xs xq : ι → Fin 512 → EReal)
    (wa ua va : Fin 512 → Fin 512 → EReal) (ba : Fin 512 → EReal)
    (wr ur vr : Fin 512 → Fin 512 → EReal) (br : Fin 512 → EReal)
    (wq uq vq : Fin 512 → Fin 512 → EReal) (bq : Fin 512 → EReal)
    (wc uc vc : Fin 512 → Fin 512 → EReal) (bc : Fin 512 → EReal)
    (p : ι) (j : Fin 512) : EReal :=
  gate xi xs xq wa ua va ba p j
      * Ideal.tanh (((∑ k : Fin 512, xi p k * wc k j) + bc j)
          + (∑ k : Fin 512, (xs p k * gate xi xs xq wr ur vr br p k) * uc k j)
          + (∑ k : Fin 512, (xq p k * gate xi xs xq wq uq vq bq p k) * vc k j))
    + (1 - gate xi xs xq wa ua va ba p j) * xs p j

/-- The cell reads its three row arrays at the one row `p` only: rows picked out of larger arrays by any map
    give the larger arrays' cell at the picked row. -/
theorem cell_rows {κ : Type} (ρ : κ → ι) (xi xs xq : ι → Fin 512 → EReal)
    (wa ua va : Fin 512 → Fin 512 → EReal) (ba : Fin 512 → EReal)
    (wr ur vr : Fin 512 → Fin 512 → EReal) (br : Fin 512 → EReal)
    (wq uq vq : Fin 512 → Fin 512 → EReal) (bq : Fin 512 → EReal)
    (wc uc vc : Fin 512 → Fin 512 → EReal) (bc : Fin 512 → EReal) (p : κ) (j : Fin 512) :
    cell (fun p => xi (ρ p)) (fun p => xs (ρ p)) (fun p => xq (ρ p)) wa ua va ba wr ur vr br wq uq vq bq wc uc vc bc p j
      = cell xi xs xq wa ua va ba wr ur vr br wq uq vq bq wc uc vc bc (ρ p) j := rfl

/-- Equal rows and equal tables give equal cells. -/
theorem cell_congr {xi xi' : ι → Fin 512 → EReal} {xs xs' : ι → Fin 512 → EReal} {xq xq' : ι → Fin 512 → EReal} {wa wa' : Fin 512 → Fin 512 → EReal} {ua ua' : Fin 512 → Fin 512 → EReal} {va va' : Fin 512 → Fin 512 → EReal} {ba ba' : Fin 512 → EReal} {wr wr' : Fin 512 → Fin 512 → EReal} {ur ur' : Fin 512 → Fin 512 → EReal} {vr vr' : Fin 512 → Fin 512 → EReal} {br br' : Fin 512 → EReal} {wq wq' : Fin 512 → Fin 512 → EReal} {uq uq' : Fin 512 → Fin 512 → EReal} {vq vq' : Fin 512 → Fin 512 → EReal} {bq bq' : Fin 512 → EReal} {wc wc' : Fin 512 → Fin 512 → EReal} {uc uc' : Fin 512 → Fin 512 → EReal} {vc vc' : Fin 512 → Fin 512 → EReal} {bc bc' : Fin 512 → EReal}
    (h_xi : xi = xi') (h_xs : xs = xs') (h_xq : xq = xq') (h_wa : wa = wa') (h_ua : ua = ua') (h_va : va = va') (h_ba : ba = ba') (h_wr : wr = wr') (h_ur : ur = ur') (h_vr : vr = vr') (h_br : br = br') (h_wq : wq = wq') (h_uq : uq = uq') (h_vq : vq = vq') (h_bq : bq = bq') (h_wc : wc = wc') (h_uc : uc = uc') (h_vc : vc = vc') (h_bc : bc = bc') (p : ι) (j : Fin 512) :
    cell xi xs xq wa ua va ba wr ur vr br wq uq vq bq wc uc vc bc p j = cell xi' xs' xq' wa' ua' va' ba' wr' ur' vr' br' wq' uq' vq' bq' wc' uc' vc' bc' p j := by
  subst h_xi h_xs h_xq h_wa h_ua h_va h_ba h_wr h_ur h_vr h_br h_wq h_uq h_vq h_bq h_wc h_uc h_vc h_bc
  rfl

/-- The cell over a whole batch of 65536 rows, as one array: the three row arrays, then the nineteen tables in the
    order a caller passes them — per gate `a`, `r`, `r'`, `c` an input weight matrix and its bias, then the four state
    matrices, then the four parent matrices, every matrix output-major. -/
def cellArr (x0 x1 x2 : (⟨2, ![65536, 512]⟩ : Shape).Idx → EReal)
    (x3 : (⟨2, ![512, 512]⟩ : Shape).Idx → EReal) (x4 : (⟨1, ![512]⟩ : Shape).Idx → EReal)
    (x5 : (⟨2, ![512, 512]⟩ : Shape).Idx → EReal) (x6 : (⟨1, ![512]⟩ : Shape).Idx → EReal)
    (x7 : (⟨2, ![512, 512]⟩ : Shape).Idx → EReal) (x8 : (⟨1, ![512]⟩ : Shape).Idx → EReal)
    (x9 : (⟨2, ![512, 512]⟩ : Shape).Idx → EReal) (x10 : (⟨1, ![512]⟩ : Shape).Idx → EReal)
    (x11 x12 x13 x14 x15 x16 x17 x18 : (⟨2, ![512, 512]⟩ : Shape).Idx → EReal) :
    (⟨2, ![65536, 512]⟩ : Shape).Idx → EReal := fun i =>
  cell (rows x0) (rows x1) (rows x2)
    (outMajor x3) (outMajor x11) (outMajor x15) (vec x4)
    (outMajor x5) (outMajor x12) (outMajor x16) (vec x6)
    (outMajor x7) (outMajor x13) (outMajor x17) (vec x8)
    (outMajor x9) (outMajor x14) (outMajor x18) (vec x10) (i 0) (i 1)

/-- The sigmoid spelt out with the unit as a float word: `1 / (1 + e^(−x))`. -/
theorem logistic_spelt (x : EReal) : Ideal.div 1 (1 + Ideal.exp (-x)) = Ideal.logistic x := rfl

/-- The single-precision word of `1.0` is the real number one. -/
theorem word_one : Ideal.ofBits .f32 0x3F800000#32 = (1 : EReal) := by
  simp [Ideal.ofBits, Ideal.ieee]
  rw [← EReal.coe_mul, ← EReal.coe_one]
  exact congrArg _ (by norm_num)

end Cert.TreeGru

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.BodyCell.lean ====
import proofs.«174785_j34900904247524_2_alg».proof.Proof.Gen.KernelIdeal.Skeleton
import proofs.«174785_j34900904247524_2_alg».proof.Proof.Cell
import proofs.«174785_j34900904247524_2_alg».proof.Proof.LibPlainMatmul
import Idealize.ShloMosaic.Lib.Pipeline.Value
import Idealize.ShloMosaic.Lib.ValueIdx
import Idealize.ShloMosaic.PureOps.Ideal.Laws

/-!
# One block of the kernel: what the body stores, entry by entry

The body is handed 512 rows of the inputs `xi`, the states `xs` and the parent states `xq`, and five weight tables
laid out for wide products: `w` holds the four gates' input weights side by side (512 columns each, in the order
attention, reset, parent reset, candidate), `b` their biases in one row, `u3` and `p3` the state and parent weights of
the first three gates side by side, `uc` and `pc` the candidate's. It forms the three wide products, cuts each gate's
512 columns out of them, and finishes the cell. Read at entry `(p, j)` the stored block is the cell of `Cell.lean`
with gate `g`'s tables the columns `512·g + j` of the wide ones: a column of a wide product is the product with
that column.
-/

noncomputable section

namespace Cert.KernelIdeal.BodyValue

open Cert.KernelIdeal Cert.KernelIdeal.Gen Idealize.ShloMosaic Idealize.ShloMosaic.ValueIdx Cert.TreeGru

/-- Column `j` of gate `g` among four gates side by side. -/
def col4 (g : Fin 4) (j : Fin 512) : Fin 2048 := ⟨g.val * 512 + j.val, by have := g.isLt; have := j.isLt; omega⟩
/-- Column `j` of gate `g` among three gates side by side. -/
def col3 (g : Fin 3) (j : Fin 512) : Fin 1536 := ⟨g.val * 512 + j.val, by have := g.isLt; have := j.isLt; omega⟩

/-- Gate `g`'s input weights, state weights, parent weights and bias inside the wide tables. -/
abbrev wOf (w : Vec Ideal S512x2048 .bf16) (g : Fin 4) : Fin 512 → Fin 512 → EReal := fun k j => w (ix2 k (col4 g j))
abbrev uOf (u : Vec Ideal S512x1536 .bf16) (g : Fin 3) : Fin 512 → Fin 512 → EReal := fun k j => u (ix2 k (col3 g j))
abbrev bOf (b : Vec Ideal S1x2048 .f32) (g : Fin 4) : Fin 512 → EReal := fun j => b (ix2 (0 : Fin 1) (col4 g j))
/-- A square table as it is. -/
abbrev sq (u : Vec Ideal S512x512 .bf16) : Fin 512 → Fin 512 → EReal := fun k j => u (ix2 k j)

variable (xs xq xi : Vec Ideal S512x512 .f32) (w : Vec Ideal S512x2048 .bf16) (b : Vec Ideal S1x2048 .f32)
  (u3 p3 : Vec Ideal S512x1536 .bf16) (uc pc : Vec Ideal S512x512 .bf16)

/-- The wide input product with its bias row, at row `p`, column `n`. -/
theorem inputPath (p : Fin 512) (n : Fin 2048) :
    k0_pay2 xi w b (ix2 p n) = (∑ k : Fin 512, xi (ix2 p k) * w (ix2 k n)) + b (ix2 (0 : Fin 1) n) := by
  unfold k0_pay2
  rw [shapeCast_self, shapeCast_self]
  show FloatOps.matmul (F := Ideal) (DotDims.plain 512 512 2048) none (truncf .bf16 xi bitsLt_bf16_f32 : FVec Ideal S512x512 .bf16) (w : FVec Ideal S512x2048 .bf16) (constant ⟨2, ![512, 2048]⟩ .f32 0x00000000#32) (ix2 p n)
      + broadcastTo S512x2048 b broadcasts_S1x2048_S512x2048 (ix2 p n) = _
  rw [Cert.PlainMatmul.matmul_zero_apply, broadcastTo_apply b broadcasts_S1x2048_S512x2048 (ix2 p n) (ix2 (0 : Fin 1) n) (fun a => match a with
    | ⟨0, _⟩ => by show (0 : Nat) = if (1 : Nat) = 1 then 0 else p.val; rw [if_pos rfl]
    | ⟨1, _⟩ => by show n.val = if (2048 : Nat) = 1 then 0 else n.val; rw [if_neg (by decide)])]
  rfl

/-- The wide state product at row `p`, column `n`. -/
theorem statePath (p : Fin 512) (n : Fin 1536) :
    k0_pay3 xs u3 (ix2 p n) = ∑ k : Fin 512, xs (ix2 p k) * u3 (ix2 k n) := by
  unfold k0_pay3
  rw [shapeCast_self]
  show FloatOps.matmul (F := Ideal) (DotDims.plain 512 512 1536) none (truncf .bf16 xs bitsLt_bf16_f32 : FVec Ideal S512x512 .bf16) (u3 : FVec Ideal S512x1536 .bf16) (constant ⟨2, ![512, 1536]⟩ .f32 0x00000000#32) (ix2 p n) = _
  rw [Cert.PlainMatmul.matmul_zero_apply]
  rfl

/-- The wide parent product at row `p`, column `n`. -/
theorem parentPath (p : Fin 512) (n : Fin 1536) :
    k0_pay4 xq p3 (ix2 p n) = ∑ k : Fin 512, xq (ix2 p k) * p3 (ix2 k n) := by
  unfold k0_pay4
  rw [shapeCast_self]
  show FloatOps.matmul (F := Ideal) (DotDims.plain 512 512 1536) none (truncf .bf16 xq bitsLt_bf16_f32 : FVec Ideal S512x512 .bf16) (p3 : FVec Ideal S512x1536 .bf16) (constant ⟨2, ![512, 1536]⟩ .f32 0x00000000#32) (ix2 p n) = _
  rw [Cert.PlainMatmul.matmul_zero_apply]
  rfl

/-- Gate `g`'s 512 columns cut out of a table of four gates. -/
theorem cut4 (v : FVec Ideal S512x2048 .f32) (g : Fin 4) (h : S512x2048.Slices ![0, g.val * 512] S512x512) (p j : Fin 512) :
    extractStridedSlice S512x512 ![0, g.val * 512] v h (ix2 p j) = v (ix2 p (col4 g j)) :=
  extractStridedSlice_apply _ v h (ix2 p j) (ix2 p (col4 g j)) (fun a => match a with
    | ⟨0, _⟩ => by show p.val = 0 + p.val; omega
    | ⟨1, _⟩ => by show g.val * 512 + j.val = g.val * 512 + j.val; rfl)

/-- Gate `g`'s 512 columns cut out of a table of three gates. -/
theorem cut3 (v : FVec Ideal S512x1536 .f32) (g : Fin 3) (h : S512x1536.Slices ![0, g.val * 512] S512x512) (p j : Fin 512) :
    extractStridedSlice S512x512 ![0, g.val * 512] v h (ix2 p j) = v (ix2 p (col3 g j)) :=
  extractStridedSlice_apply _ v h (ix2 p j) (ix2 p (col3 g j)) (fun a => match a with
    | ⟨0, _⟩ => by show p.val = 0 + p.val; omega
    | ⟨1, _⟩ => by show g.val * 512 + j.val = g.val * 512 + j.val; rfl)

/-- The attention gate. -/
theorem attGate (p j : Fin 512) :
    k0_pay5 xs xq xi w b u3 p3 (ix2 p j)
      = gate (rows xi) (rows xs) (rows xq) (wOf w 0) (uOf u3 0) (uOf p3 0) (bOf b 0) p j := by
  unfold k0_pay5
  show Ideal.logistic ((extractStridedSlice S512x512 ![0, (0 : Fin 4).val * 512] (k0_pay2 xi w b) slices_S512x2048_o0_0_S512x512 (ix2 p j)
      + extractStridedSlice S512x512 ![0, (0 : Fin 3).val * 512] (k0_pay3 xs u3) slices_S512x1536_o0_0_S512x512 (ix2 p j))
      + extractStridedSlice S512x512 ![0, (0 : Fin 3).val * 512] (k0_pay4 xq p3) slices_S512x1536_o0_0_S512x512 (ix2 p j)) = _
  rw [cut4, cut3, cut3, inputPath, statePath, parentPath]
  rfl

/-- The state row under its reset gate. -/
theorem resetState (p j : Fin 512) :
    k0_pay6 xs xq xi w b u3 p3 (ix2 p j)
      = xs (ix2 p j) * gate (rows xi) (rows xs) (rows xq) (wOf w 1) (uOf u3 1) (uOf p3 1) (bOf b 1) p j := by
  unfold k0_pay6
  show xs (ix2 p j) * Ideal.logistic ((extractStridedSlice S512x512 ![0, (1 : Fin 4).val * 512] (k0_pay2 xi w b) slices_S512x2048_o0_512_S512x512 (ix2 p j)
      + extractStridedSlice S512x512 ![0, (1 : Fin 3).val * 512] (k0_pay3 xs u3) slices_S512x1536_o0_512_S512x512 (ix2 p j))
      + extractStridedSlice S512x512 ![0, (1 : Fin 3).val * 512] (k0_pay4 xq p3) slices_S512x1536_o0_512_S512x512 (ix2 p j)) = _
  rw [cut4, cut3, cut3, inputPath, statePath, parentPath]
  rfl

/-- The parent row under its reset gate. -/
theorem resetParent (p j : Fin 512) :
    k0_pay7 xs xq xi w b u3 p3 (ix2 p j)
      = xq (ix2 p j) * gate (rows xi) (rows xs) (rows xq) (wOf w 2) (uOf u3 2) (uOf p3 2) (bOf b 2) p j := by
  unfold k0_pay7
  show xq (ix2 p j) * Ideal.logistic ((extractStridedSlice S512x512 ![0, (2 : Fin 4).val * 512] (k0_pay2 xi w b) slices_S512x2048_o0_1024_S512x512 (ix2 p j)
      + extractStridedSlice S512x512 ![0, (2 : Fin 3).val * 512] (k0_pay3 xs u3) slices_S512x1536_o0_1024_S512x512 (ix2 p j))
      + extractStridedSlice S512x512 ![0, (2 : Fin 3).val * 512] (k0_pay4 xq p3) slices_S512x1536_o0_1024_S512x512 (ix2 p j)) = _
  rw [cut4, cut3, cut3, inputPath, statePath, parentPath]
  rfl

/-- The candidate's input product with its bias. -/
theorem candInput (p j : Fin 512) :
    k0_pay8 xi w b (ix2 p j) = (∑ k : Fin 512, xi (ix2 p k) * wOf w 3 k j) + bOf b 3 j := by
  unfold k0_pay8
  show extractStridedSlice S512x512 ![0, (3 : Fin 4).val * 512] (k0_pay2 xi w b) slices_S512x2048_o0_1536_S512x512 (ix2 p j) = _
  rw [cut4, inputPath]

/-- THE BLOCK THE BODY STORES, at entry `(p, j)`: the cell over the block's rows, gate `g`'s tables the columns
    `512·g + j` of the wide ones. -/
theorem body_cell (p j : Fin 512) :
    k0_pay1 xs (k0_pay5 xs xq xi w b u3 p3) (k0_pay6 xs xq xi w b u3 p3) (k0_pay7 xs xq xi w b u3 p3) (k0_pay8 xi w b) uc pc (ix2 p j)
      = cell (rows xi) (rows xs) (rows xq)
          (wOf w 0) (uOf u3 0) (uOf p3 0) (bOf b 0)
          (wOf w 1) (uOf u3 1) (uOf p3 1) (bOf b 1)
          (wOf w 2) (uOf u3 2) (uOf p3 2) (bOf b 2)
          (wOf w 3) (sq uc) (sq pc) (bOf b 3) p j := by
  unfold k0_pay1
  rw [shapeCast_self, shapeCast_self]
  show k0_pay5 xs xq xi w b u3 p3 (ix2 p j)
        * Ideal.tanh ((k0_pay8 xi w b (ix2 p j)
            + FloatOps.matmul (DotDims.plain 512 512 512) none (k0_pay6 xs xq xi w b u3 p3) uc (constant ⟨2, ![512, 512]⟩ .f32 0x00000000#32) (ix2 p j))
            + FloatOps.matmul (DotDims.plain 512 512 512) none (k0_pay7 xs xq xi w b u3 p3) pc (constant ⟨2, ![512, 512]⟩ .f32 0x00000000#32) (ix2 p j))
      + (Ideal.ofBits .f32 0x3F800000#32 - k0_pay5 xs xq xi w b u3 p3 (ix2 p j)) * xs (ix2 p j) = _
  rw [Cert.PlainMatmul.matmul_zero_apply, Cert.PlainMatmul.matmul_zero_apply, attGate, candInput, word_one]
  simp only [resetState, resetParent]
  rfl

/-- The same at any entry `y` of the block. -/
theorem body_cell_at (y : S512x512.Idx) :
    k0_pay1 xs (k0_pay5 xs xq xi w b u3 p3) (k0_pay6 xs xq xi w b u3 p3) (k0_pay7 xs xq xi w b u3 p3) (k0_pay8 xi w b) uc pc y
      = cell (rows xi) (rows xs) (rows xq)
          (wOf w 0) (uOf u3 0) (uOf p3 0) (bOf b 0)
          (wOf w 1) (uOf u3 1) (uOf p3 1) (bOf b 1)
          (wOf w 2) (uOf u3 2) (uOf p3 2) (bOf b 2)
          (wOf w 3) (sq uc) (sq pc) (bOf b 3) (y 0) (y 1) := by
  obtain ⟨p, j, rfl⟩ : ∃ (p : Fin 512) (j : Fin 512), y = ix2 p j := ⟨y 0, y 1, eq_ix2 y⟩
  exact body_cell xs xq xi w b u3 p3 uc pc p j

end Cert.KernelIdeal.BodyValue

end
-- ==== Proof.LibStackedRows.lean ====
import Idealize.ShloMosaic.Lib.Pipeline.Value
import Idealize.ShloMosaic.Lib.ValueIdx

/-!
# Tables stacked along their rows, read at one entry

`N` matrices of one shape `R × C` concatenated along axis 0 make a `T × C` matrix with `T = N·R`; row `n·R + r` of
it is row `r` of piece `n`. Likewise `N` vectors of length `R` joined end to end: entry `n·R + r` is entry `r` of piece
`n`. The pieces are given as a family `f : Fin N → …` (a literal list of `N` pieces is `List.ofFn` of the family of
its members), the element type is arbitrary, and the position is any `q : Fin T` with `q = n·R + r`, so that the
caller's own way of writing the row fits. With it, a transposed stack: entry `(c, n·R + r)` of the transpose is piece
`n` at `(r, c)` — the layout a wide matrix product wants for several gates' weights kept output-major.
-/

noncomputable section

namespace Cert.StackedRows

open Idealize.ShloMosaic Idealize.ShloMosaic.ValueIdx

variable {α : Type} {N R C T : Nat}

/-- Row `n·R + r` of `N` stacked `R × C` matrices is row `r` of piece `n`. -/
theorem stacked_apply (f : Fin N → ((⟨2, ![R, C]⟩ : Shape).Idx → α))
    (h : Shape.Concatenates ((List.ofFn fun n : Fin N => (⟨⟨2, ![R, C]⟩, f n⟩ : (s : Shape) × (s.Idx → α))).map (·.1)) ⟨2, ![T, C]⟩ 0)
    (hR : 0 < R) (n : Fin N) (r : Fin R) (c : Fin C) (q : Fin T) (hq : q.val = n.val * R + r.val) :
    concatenate ⟨2, ![T, C]⟩ 0 (List.ofFn fun n : Fin N => (⟨⟨2, ![R, C]⟩, f n⟩ : (s : Shape) × (s.Idx → α))) h (ix2 q c)
      = f n (ix2 r c) :=
  concatenate_ofFn_apply (t := ⟨2, ![T, C]⟩) (s₁ := ⟨2, ![R, C]⟩) 0 f h rfl R rfl (ix2 q c) n
    (by show q.val / R = n.val
        rw [hq, Nat.add_comm, Nat.add_mul_div_right _ _ hR, Nat.div_eq_of_lt r.isLt, Nat.zero_add])
    (ix2 r c)
    (by show r.val = q.val % R
        rw [hq, Nat.add_comm, Nat.add_mul_mod_self_right, Nat.mod_eq_of_lt r.isLt])
    (fun b hb => by
      match b with
      | ⟨0, _⟩ => exact absurd rfl hb
      | ⟨1, _⟩ => rfl)

/-- Entry `n·R + r` of `N` joined vectors of length `R` is entry `r` of piece `n`. -/
theorem joined_apply (f : Fin N → ((⟨1, ![R]⟩ : Shape).Idx → α))
    (h : Shape.Concatenates ((List.ofFn fun n : Fin N => (⟨⟨1, ![R]⟩, f n⟩ : (s : Shape) × (s.Idx → α))).map (·.1)) ⟨1, ![T]⟩ 0)
    (hR : 0 < R) (n : Fin N) (r : Fin R) (q : Fin T) (hq : q.val = n.val * R + r.val) :
    concatenate ⟨1, ![T]⟩ 0 (List.ofFn fun n : Fin N => (⟨⟨1, ![R]⟩, f n⟩ : (s : Shape) × (s.Idx → α))) h (ix1 q)
      = f n (ix1 r) :=
  concatenate_ofFn_apply (t := ⟨1, ![T]⟩) (s₁ := ⟨1, ![R]⟩) 0 f h rfl R rfl (ix1 q) n
    (by show q.val / R = n.val
        rw [hq, Nat.add_comm, Nat.add_mul_div_right _ _ hR, Nat.div_eq_of_lt r.isLt, Nat.zero_add])
    (ix1 r)
    (by show r.val = q.val % R
        rw [hq, Nat.add_comm, Nat.add_mul_mod_self_right, Nat.mod_eq_of_lt r.isLt])
    (fun b hb => by
      match b with
      | ⟨0, _⟩ => exact absurd rfl hb)

/-- Entry `(c, n·R + r)` of the transpose of `N` stacked `R × C` matrices is piece `n` at `(r, c)`. -/
theorem stacked_transpose_apply (f : Fin N → ((⟨2, ![R, C]⟩ : Shape).Idx → α))
    (h : Shape.Concatenates ((List.ofFn fun n : Fin N => (⟨⟨2, ![R, C]⟩, f n⟩ : (s : Shape) × (s.Idx → α))).map (·.1)) ⟨2, ![T, C]⟩ 0)
    (ht : (⟨2, ![T, C]⟩ : Shape).Transposes [1, 0] ⟨2, ![C, T]⟩)
    (hR : 0 < R) (n : Fin N) (r : Fin R) (c : Fin C) (q : Fin T) (hq : q.val = n.val * R + r.val) :
    transpose ⟨2, ![C, T]⟩ [1, 0]
        (concatenate ⟨2, ![T, C]⟩ 0 (List.ofFn fun n : Fin N => (⟨⟨2, ![R, C]⟩, f n⟩ : (s : Shape) × (s.Idx → α))) h) ht (ix2 c q)
      = f n (ix2 r c) :=
  (transpose_apply [1, 0] _ ht (ix2 c q) (ix2 q c) (fun b => match b with
    | ⟨0, _⟩ => rfl
    | ⟨1, _⟩ => rfl)).trans (stacked_apply f h hR n r c q hq)

/-- Entry `(k, j)` of the transpose of a square matrix. -/
theorem square_transpose_apply (x : (⟨2, ![R, R]⟩ : Shape).Idx → α)
    (ht : (⟨2, ![R, R]⟩ : Shape).Transposes [1, 0] ⟨2, ![R, R]⟩) (k j : Fin R) :
    transpose ⟨2, ![R, R]⟩ [1, 0] x ht (ix2 k j) = x (ix2 j k) :=
  transpose_apply [1, 0] x ht (ix2 k j) (ix2 j k) (fun b => match b with
    | ⟨0, _⟩ => rfl
    | ⟨1, _⟩ => rfl)

end Cert.StackedRows

end
-- ==== Proof.HostTables.lean ====
import proofs.«174785_j34900904247524_2_alg».proof.Proof.FrameKI
import proofs.«174785_j34900904247524_2_alg».proof.Proof.LibStackedRows
import Idealize.ShloMosaic.Lib.StableHlo.Run
import Idealize.ShloMosaic.Lib.Pipeline.Value
import Idealize.ShloMosaic.PureOps.Ideal

/-!
# The weight tables the region finds

Before the region, @main lays the weights out for the kernel's wide products. The four gates' input matrices
(each kept output-major, `[out, in]`) are stacked along their rows, transposed and narrowed: column `512·g + j` of the
resulting `512 × 2048` table is row `j` of gate `g`'s matrix, so entry `(k, 512·g + j)` is that matrix at `(j, k)`.
The first three gates' state matrices and parent matrices are laid out the same way (`512 × 1536`); the four bias
vectors are joined and laid as one row; the candidate's state and parent matrices are just transposed. Narrowing
is the identity on the extended reals. None of these operations reads another's result except along its own
chain, and none writes an argument.
-/

noncomputable section

namespace Cert.KernelIdeal.Tables

open Cert.KernelIdeal Cert.KernelIdeal.Gen Cert.KernelIdeal.Hand Idealize.ShloMosaic Idealize.ShloMosaic.TcCoe
open Idealize.SL.Sem Idealize.ShloMosaic.StableHlo Idealize.ShloMosaic.ValueIdx

variable (m : (ℓ : Loc nD τ sig) → Buf (Elt Ideal) ℓ) (c : Dev nD)

/-- One pass over the host re-layings: each result buffer at its operation's value of its operands. -/
local macro "host_simp" : tactic =>
  `(tactic| simp (disch := decide) only [after_cons, after_nil, unary_result', reshape_result', nary_result',
      unary_result_ne', reshape_result_ne', nary_result_ne', Matrix.cons_val])
/-- An argument buffer is written by none of them. -/
local macro "host_ne" : tactic =>
  `(tactic| repeat (first
       | (rw [unary_result_ne]; rotate_left; decide)
       | (rw [reshape_result_ne]; rotate_left; decide)
       | (rw [nary_result_ne]; rotate_left; decide)))

/-! ## The tables as terms of the argument arrays -/

theorem v2_eq : @Eq (S512x2048.Idx → EReal) (V m c main_v2)
      (truncf (F := Ideal) .bf16 (transpose S512x2048 [1, 0] (concatenate S2048x512 0 [⟨S512x512, m (c, Proc.tc.devRef main_arg3)⟩, ⟨S512x512, m (c, Proc.tc.devRef main_arg5)⟩, ⟨S512x512, m (c, Proc.tc.devRef main_arg7)⟩, ⟨S512x512, m (c, Proc.tc.devRef main_arg9)⟩]
        concatenates_S512x512_S512x512_S512x512_S512x512_S2048x512_d0) transposes_S2048x512_S512x2048_1_0) bitsLt_bf16_f32) := by
  dsimp only [V, hostOps0]
  host_simp
  try host_ne
  try rfl

theorem v4_eq : (V m c main_v4 : S1x2048.Idx → EReal)
    = shapeCast S1x2048 (concatenate S2048 0 [⟨S512, m (c, Proc.tc.devRef main_arg4)⟩, ⟨S512, m (c, Proc.tc.devRef main_arg6)⟩, ⟨S512, m (c, Proc.tc.devRef main_arg8)⟩, ⟨S512, m (c, Proc.tc.devRef main_arg10)⟩]
        concatenates_S512_S512_S512_S512_S2048_d0) shapeCasts_S2048_S1x2048 := by
  dsimp only [V, hostOps0]
  host_simp
  try host_ne
  try rfl

theorem v7_eq : @Eq (S512x1536.Idx → EReal) (V m c main_v7)
      (truncf (F := Ideal) .bf16 (transpose S512x1536 [1, 0] (concatenate S1536x512 0 [⟨S512x512, m (c, Proc.tc.devRef main_arg11)⟩, ⟨S512x512, m (c, Proc.tc.devRef main_arg12)⟩, ⟨S512x512, m (c, Proc.tc.devRef main_arg13)⟩]
        concatenates_S512x512_S512x512_S512x512_S1536x512_d0) transposes_S1536x512_S512x1536_1_0) bitsLt_bf16_f32) := by
  dsimp only [V, hostOps0]
  host_simp
  try host_ne
  try rfl

theorem v10_eq : @Eq (S512x1536.Idx → EReal) (V m c main_v10)
      (truncf (F := Ideal) .bf16 (transpose S512x1536 [1, 0] (concatenate S1536x512 0 [⟨S512x512, m (c, Proc.tc.devRef main_arg15)⟩, ⟨S512x512, m (c, Proc.tc.devRef main_arg16)⟩, ⟨S512x512, m (c, Proc.tc.devRef main_arg17)⟩]
        concatenates_S512x512_S512x512_S512x512_S1536x512_d0) transposes_S1536x512_S512x1536_1_0) bitsLt_bf16_f32) := by
  dsimp only [V, hostOps0]
  host_simp
  try host_ne
  try rfl

theorem v12_eq : @Eq (S512x512.Idx → EReal) (V m c main_v12)
      (truncf (F := Ideal) .bf16 (transpose S512x512 [1, 0] (m (c, Proc.tc.devRef main_arg14)) transposes_S512x512_S512x512_1_0) bitsLt_bf16_f32) := by
  dsimp only [V, hostOps0]
  host_simp
  try host_ne
  try rfl

theorem v14_eq : @Eq (S512x512.Idx → EReal) (V m c main_v14)
      (truncf (F := Ideal) .bf16 (transpose S512x512 [1, 0] (m (c, Proc.tc.devRef main_arg18)) transposes_S512x512_S512x512_1_0) bitsLt_bf16_f32) := by
  dsimp only [V, hostOps0]
  host_simp
  try host_ne
  try rfl

/-! ## The tables at an entry -/

/-- The input weights: entry `(k, 512·g + j)` is gate `g`'s matrix at `(j, k)`. -/
theorem inputW (g : Fin 4) (j k : Fin 512) (q : Fin 2048) (hq : q.val = g.val * 512 + j.val) :
    (V m c main_v2 : S512x2048.Idx → EReal) (ix2 k q) = (![((m ((c : Thread nD τ).loc main_arg3)) : S512x512.Idx → EReal), (m ((c : Thread nD τ).loc main_arg5)), (m ((c : Thread nD τ).loc main_arg7)), (m ((c : Thread nD τ).loc main_arg9))] g) (ix2 j k) := by
  rw [v2_eq]
  exact Cert.StackedRows.stacked_transpose_apply (N := 4) (R := 512) (C := 512) (T := 2048) ![((m ((c : Thread nD τ).loc main_arg3)) : S512x512.Idx → EReal), (m ((c : Thread nD τ).loc main_arg5)), (m ((c : Thread nD τ).loc main_arg7)), (m ((c : Thread nD τ).loc main_arg9))]
    concatenates_S512x512_S512x512_S512x512_S512x512_S2048x512_d0 transposes_S2048x512_S512x2048_1_0 (by decide) g j k q hq

/-- The state weights of the first three gates. -/
theorem stateW (g : Fin 3) (j k : Fin 512) (q : Fin 1536) (hq : q.val = g.val * 512 + j.val) :
    (V m c main_v7 : S512x1536.Idx → EReal) (ix2 k q) = (![((m ((c : Thread nD τ).loc main_arg11)) : S512x512.Idx → EReal), (m ((c : Thread nD τ).loc main_arg12)), (m ((c : Thread nD τ).loc main_arg13))] g) (ix2 j k) := by
  rw [v7_eq]
  exact Cert.StackedRows.stacked_transpose_apply (N := 3) (R := 512) (C := 512) (T := 1536) ![((m ((c : Thread nD τ).loc main_arg11)) : S512x512.Idx → EReal), (m ((c : Thread nD τ).loc main_arg12)), (m ((c : Thread nD τ).loc main_arg13))]
    concatenates_S512x512_S512x512_S512x512_S1536x512_d0 transposes_S1536x512_S512x1536_1_0 (by decide) g j k q hq

/-- The parent weights of the first three gates. -/
theorem parentW (g : Fin 3) (j k : Fin 512) (q : Fin 1536) (hq : q.val = g.val * 512 + j.val) :
    (V m c main_v10 : S512x1536.Idx → EReal) (ix2 k q) = (![((m ((c : Thread nD τ).loc main_arg15)) : S512x512.Idx → EReal), (m ((c : Thread nD τ).loc main_arg16)), (m ((c : Thread nD τ).loc main_arg17))] g) (ix2 j k) := by
  rw [v10_eq]
  exact Cert.StackedRows.stacked_transpose_apply (N := 3) (R := 512) (C := 512) (T := 1536) ![((m ((c : Thread nD τ).loc main_arg15)) : S512x512.Idx → EReal), (m ((c : Thread nD τ).loc main_arg16)), (m ((c : Thread nD τ).loc main_arg17))]
    concatenates_S512x512_S512x512_S512x512_S1536x512_d0 transposes_S1536x512_S512x1536_1_0 (by decide) g j k q hq

/-- The biases: entry `(0, 512·g + j)` of the row is gate `g`'s bias at `j`. -/
theorem biasRow (g : Fin 4) (j : Fin 512) (q : Fin 2048) (hq : q.val = g.val * 512 + j.val) :
    (V m c main_v4 : S1x2048.Idx → EReal) (ix2 (0 : Fin 1) q) = (![((m ((c : Thread nD τ).loc main_arg4)) : S512.Idx → EReal), (m ((c : Thread nD τ).loc main_arg6)), (m ((c : Thread nD τ).loc main_arg8)), (m ((c : Thread nD τ).loc main_arg10))] g) (ix1 j) := by
  rw [v4_eq]
  refine (shapeCast_addUnit_apply ![2048] _ shapeCasts_S2048_S1x2048 (ix2 (0 : Fin 1) q)).trans ?_
  rw [show (fun a : Fin 1 => (ix2 (0 : Fin 1) q) a.succ) = ix1 q from funext fun a => by match a with | ⟨0, _⟩ => rfl]
  exact Cert.StackedRows.joined_apply (N := 4) (R := 512) (T := 2048) ![((m ((c : Thread nD τ).loc main_arg4)) : S512.Idx → EReal), (m ((c : Thread nD τ).loc main_arg6)), (m ((c : Thread nD τ).loc main_arg8)), (m ((c : Thread nD τ).loc main_arg10))]
    concatenates_S512_S512_S512_S512_S2048_d0 (by decide) g j q hq

/-- The candidate's state weights, transposed. -/
theorem candStateW (k j : Fin 512) :
    (V m c main_v12 : S512x512.Idx → EReal) (ix2 k j) = (m ((c : Thread nD τ).loc main_arg14)) (ix2 j k) := by
  rw [v12_eq]
  exact Cert.StackedRows.square_transpose_apply (R := 512) _ transposes_S512x512_S512x512_1_0 k j

/-- The candidate's parent weights, transposed. -/
theorem candParentW (k j : Fin 512) :
    (V m c main_v14 : S512x512.Idx → EReal) (ix2 k j) = (m ((c : Thread nD τ).loc main_arg18)) (ix2 j k) := by
  rw [v14_eq]
  exact Cert.StackedRows.square_transpose_apply (R := 512) _ transposes_S512x512_S512x512_1_0 k j

end Cert.KernelIdeal.Tables

end
-- ==== Proof.KernelValue.lean ====
import proofs.«174785_j34900904247524_2_alg».proof.Proof.FrameKI
import proofs.«174785_j34900904247524_2_alg».proof.Proof.BodyCell
import proofs.«174785_j34900904247524_2_alg».proof.Proof.HostTables
import Idealize.ShloMosaic.Lib.Pipeline.Value

/-!
# From blocks to the whole result

Grid point `t` reads rows `512·t … 512·t + 511` of the three activation arrays and the whole of each weight table,
and writes back block `t` of the result: rows `512·t … 512·t + 511`, all 512 columns. The body's block at entry
`(p, j)` is the cell over the block's rows with each gate's tables the columns `512·g + j` of the wide tables
(`BodyCell.lean`); those columns are the gate's own matrix read inner entry first (`HostTables.lean`); and the cell
reads its row arrays at the one row, so it is the whole batch's cell at row `512·t + p`. The 128 blocks tile the
`65536 × 512` result, so the array after the run is the whole batch's cell everywhere.
-/

set_option maxRecDepth 16384

noncomputable section

namespace Cert.KernelIdeal.Whole

open Cert.KernelIdeal Cert.KernelIdeal.Gen Cert.KernelIdeal.Hand Cert.KernelIdeal.BodyValue Cert.KernelIdeal.Tables
open Idealize.ShloMosaic Idealize.ShloMosaic.TcCoe Idealize.ShloMosaic.ValueIdx Idealize.SL.Sem Cert.TreeGru
open Idealize.ShloMosaic.Pipeline (Dat)

variable (m : (ℓ : Loc nD τ sig) → Buf (Elt Ideal) ℓ) (ρ : Dev nD → PrngReg)

/-! ## The argument arrays as launched, and the result -/

abbrev a0 (c : Dev nD) : S65536x512.Idx → EReal := m ((c : Thread nD τ).loc main_arg0)
abbrev a1 (c : Dev nD) : S65536x512.Idx → EReal := m ((c : Thread nD τ).loc main_arg1)
abbrev a2 (c : Dev nD) : S65536x512.Idx → EReal := m ((c : Thread nD τ).loc main_arg2)
abbrev a3 (c : Dev nD) : S512x512.Idx → EReal := m ((c : Thread nD τ).loc main_arg3)
abbrev a4 (c : Dev nD) : S512.Idx → EReal := m ((c : Thread nD τ).loc main_arg4)
abbrev a5 (c : Dev nD) : S512x512.Idx → EReal := m ((c : Thread nD τ).loc main_arg5)
abbrev a6 (c : Dev nD) : S512.Idx → EReal := m ((c : Thread nD τ).loc main_arg6)
abbrev a7 (c : Dev nD) : S512x512.Idx → EReal := m ((c : Thread nD τ).loc main_arg7)
abbrev a8 (c : Dev nD) : S512.Idx → EReal := m ((c : Thread nD τ).loc main_arg8)
abbrev a9 (c : Dev nD) : S512x512.Idx → EReal := m ((c : Thread nD τ).loc main_arg9)
abbrev a10 (c : Dev nD) : S512.Idx → EReal := m ((c : Thread nD τ).loc main_arg10)
abbrev a11 (c : Dev nD) : S512x512.Idx → EReal := m ((c : Thread nD τ).loc main_arg11)
abbrev a12 (c : Dev nD) : S512x512.Idx → EReal := m ((c : Thread nD τ).loc main_arg12)
abbrev a13 (c : Dev nD) : S512x512.Idx → EReal := m ((c : Thread nD τ).loc main_arg13)
abbrev a14 (c : Dev nD) : S512x512.Idx → EReal := m ((c : Thread nD τ).loc main_arg14)
abbrev a15 (c : Dev nD) : S512x512.Idx → EReal := m ((c : Thread nD τ).loc main_arg15)
abbrev a16 (c : Dev nD) : S512x512.Idx → EReal := m ((c : Thread nD τ).loc main_arg16)
abbrev a17 (c : Dev nD) : S512x512.Idx → EReal := m ((c : Thread nD τ).loc main_arg17)
abbrev a18 (c : Dev nD) : S512x512.Idx → EReal := m ((c : Thread nD τ).loc main_arg18)

/-- The result array on core `c`: the cell over the whole batch. -/
def result (c : Dev nD) : S65536x512.Idx → EReal := cellArr (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)

/-! ## Which block each window takes at a point -/

theorem hz : (![0, 0] : Fin 2 → Nat) = fun _ => 0 := funext fun a => by fin_cases a <;> rfl

/-- The activation windows and the result window take block `t` of the rows and the one block of columns; every
    weight window takes its one block (decided over the 128 points). -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = t.val
    ∧ win0_9.index t (1 : Fin 2) = 0 :=
  (by decide +kernel : ∀ t : Fin grid0.N, _)

/-- Row `p` of block `t` as a row of the batch. -/
def batchRow (t : Fin cfg0.N) (p : Fin 512) : Fin 65536 :=
  ⟨t.val * 512 + p.val, by have ht : t.val < 128 := lt_of_lt_of_eq t.isLt N_0; have := p.isLt; omega⟩

/-- Row `p` of window 0's block at point `t` is row `512·t + p` of its array, which no host re-laying wrote. -/
theorem rows_blk0 (c : Dev nD) (t : Fin cfg0.N) :
    rows (iblk m c 0 t) = fun p => rows (a0 m c) (batchRow t p) := by
  obtain ⟨i00, i01, i10, i11, i20, i21, i30, i31, i40, i41, i50, i51, i60, i61, i70, i71, i80, i81, i90, i91⟩ := idx_facts t
  funext p k
  show V m c main_arg0 (((cfg0.win 0).blk t).view.emb (ix2 p k)) = a0 m c (ix2 (batchRow t p) k)
  rw [V_main_arg0]
  refine congrArg _ (funext fun a => Fin.ext ?_)
  match a with
  | ⟨0, _⟩ => show win0_0.index t (0 : Fin 2) * 512 + 1 * p.val = t.val * 512 + p.val; omega
  | ⟨1, _⟩ => show win0_0.index t (1 : Fin 2) * 512 + 1 * k.val = k.val; omega

/-- Row `p` of window 1's block at point `t` is row `512·t + p` of its array, which no host re-laying wrote. -/
theorem rows_blk1 (c : Dev nD) (t : Fin cfg0.N) :
    rows (iblk m c 1 t) = fun p => rows (a1 m c) (batchRow t p) := by
  obtain ⟨i00, i01, i10, i11, i20, i21, i30, i31, i40, i41, i50, i51, i60, i61, i70, i71, i80, i81, i90, i91⟩ := idx_facts t
  funext p k
  show V m c main_arg1 (((cfg0.win 1).blk t).view.emb (ix2 p k)) = a1 m c (ix2 (batchRow t p) k)
  rw [V_main_arg1]
  refine congrArg _ (funext fun a => Fin.ext ?_)
  match a with
  | ⟨0, _⟩ => show win0_1.index t (0 : Fin 2) * 512 + 1 * p.val = t.val * 512 + p.val; omega
  | ⟨1, _⟩ => show win0_1.index t (1 : Fin 2) * 512 + 1 * k.val = k.val; omega

/-- Row `p` of window 2's block at point `t` is row `512·t + p` of its array, which no host re-laying wrote. -/
theorem rows_blk2 (c : Dev nD) (t : Fin cfg0.N) :
    rows (iblk m c 2 t) = fun p => rows (a2 m c) (batchRow t p) := by
  obtain ⟨i00, i01, i10, i11, i20, i21, i30, i31, i40, i41, i50, i51, i60, i61, i70, i71, i80, i81, i90, i91⟩ := idx_facts t
  funext p k
  show V m c main_arg2 (((cfg0.win 2).blk t).view.emb (ix2 p k)) = a2 m c (ix2 (batchRow t p) k)
  rw [V_main_arg2]
  refine congrArg _ (funext fun a => Fin.ext ?_)
  match a with
  | ⟨0, _⟩ => show win0_2.index t (0 : Fin 2) * 512 + 1 * p.val = t.val * 512 + p.val; omega
  | ⟨1, _⟩ => show win0_2.index t (1 : Fin 2) * 512 + 1 * k.val = k.val; omega

/-- Window 3's one block is the whole of its table. -/
theorem whole_blk3 (c : Dev nD) (t : Fin cfg0.N) (k : Fin 512) (q : Fin 2048) :
    iblk m c 3 t (ix2 k q) = (V m c main_v2 : S512x2048.Idx → EReal) (ix2 k q) := by
  obtain ⟨i00, i01, i10, i11, i20, i21, i30, i31, i40, i41, i50, i51, i60, i61, i70, i71, i80, i81, i90, i91⟩ := idx_facts t
  show V m c main_v2 (((cfg0.win 3).blk t).view.emb (ix2 k q)) = _
  refine congrArg _ (funext fun a => Fin.ext ?_)
  match a with
  | ⟨0, _⟩ => show win0_3.index t (0 : Fin 2) * 512 + 1 * k.val = k.val; omega
  | ⟨1, _⟩ => show win0_3.index t (1 : Fin 2) * 2048 + 1 * q.val = q.val; omega

/-- Window 4's one block is the whole bias row. -/
theorem whole_blk4 (c : Dev nD) (t : Fin cfg0.N) (z : Fin 1) (q : Fin 2048) :
    iblk m c 4 t (ix2 z q) = (V m c main_v4 : S1x2048.Idx → EReal) (ix2 z q) := by
  obtain ⟨i00, i01, i10, i11, i20, i21, i30, i31, i40, i41, i50, i51, i60, i61, i70, i71, i80, i81, i90, i91⟩ := idx_facts t
  show V m c main_v4 (((cfg0.win 4).blk t).view.emb (ix2 z q)) = _
  refine congrArg _ (funext fun a => Fin.ext ?_)
  match a with
  | ⟨0, _⟩ => show win0_4.index t (0 : Fin 2) * 1 + 1 * z.val = z.val; omega
  | ⟨1, _⟩ => show win0_4.index t (1 : Fin 2) * 2048 + 1 * q.val = q.val; omega

/-- Window 5's one block is the whole of its table. -/
theorem whole_blk5 (c : Dev nD) (t : Fin cfg0.N) (k : Fin 512) (q : Fin 1536) :
    iblk m c 5 t (ix2 k q) = (V m c main_v7 : S512x1536.Idx → EReal) (ix2 k q) := by
  obtain ⟨i00, i01, i10, i11, i20, i21, i30, i31, i40, i41, i50, i51, i60, i61, i70, i71, i80, i81, i90, i91⟩ := idx_facts t
  show V m c main_v7 (((cfg0.win 5).blk t).view.emb (ix2 k q)) = _
  refine congrArg _ (funext fun a => Fin.ext ?_)
  match a with
  | ⟨0, _⟩ => show win0_5.index t (0 : Fin 2) * 512 + 1 * k.val = k.val; omega
  | ⟨1, _⟩ => show win0_5.index t (1 : Fin 2) * 1536 + 1 * q.val = q.val; omega

/-- Window 6's one block is the whole of its table. -/
theorem whole_blk6 (c : Dev nD) (t : Fin cfg0.N) (k : Fin 512) (q : Fin 1536) :
    iblk m c 6 t (ix2 k q) = (V m c main_v10 : S512x1536.Idx → EReal) (ix2 k q) := by
  obtain ⟨i00, i01, i10, i11, i20, i21, i30, i31, i40, i41, i50, i51, i60, i61, i70, i71, i80, i81, i90, i91⟩ := idx_facts t
  show V m c main_v10 (((cfg0.win 6).blk t).view.emb (ix2 k q)) = _
  refine congrArg _ (funext fun a => Fin.ext ?_)
  match a with
  | ⟨0, _⟩ => show win0_6.index t (0 : Fin 2) * 512 + 1 * k.val = k.val; omega
  | ⟨1, _⟩ => show win0_6.index t (1 : Fin 2) * 1536 + 1 * q.val = q.val; omega

/-- Window 7's one block is the whole of its table. -/
theorem whole_blk7 (c : Dev nD) (t : Fin cfg0.N) (k : Fin 512) (q : Fin 512) :
    iblk m c 7 t (ix2 k q) = (V m c main_v12 : S512x512.Idx → EReal) (ix2 k q) := by
  obtain ⟨i00, i01, i10, i11, i20, i21, i30, i31, i40, i41, i50, i51, i60, i61, i70, i71, i80, i81, i90, i91⟩ := idx_facts t
  show V m c main_v12 (((cfg0.win 7).blk t).view.emb (ix2 k q)) = _
  refine congrArg _ (funext fun a => Fin.ext ?_)
  match a with
  | ⟨0, _⟩ => show win0_7.index t (0 : Fin 2) * 512 + 1 * k.val = k.val; omega
  | ⟨1, _⟩ => show win0_7.index t (1 : Fin 2) * 512 + 1 * q.val = q.val; omega

/-- Window 8's one block is the whole of its table. -/
theorem whole_blk8 (c : Dev nD) (t : Fin cfg0.N) (k : Fin 512) (q : Fin 512) :
    iblk m c 8 t (ix2 k q) = (V m c main_v14 : S512x512.Idx → EReal) (ix2 k q) := by
  obtain ⟨i00, i01, i10, i11, i20, i21, i30, i31, i40, i41, i50, i51, i60, i61, i70, i71, i80, i81, i90, i91⟩ := idx_facts t
  show V m c main_v14 (((cfg0.win 8).blk t).view.emb (ix2 k q)) = _
  refine congrArg _ (funext fun a => Fin.ext ?_)
  match a with
  | ⟨0, _⟩ => show win0_8.index t (0 : Fin 2) * 512 + 1 * k.val = k.val; omega
  | ⟨1, _⟩ => show win0_8.index t (1 : Fin 2) * 512 + 1 * q.val = q.val; omega

/-! ## Each gate's tables inside the windows' blocks -/

theorem wOf_blk (c : Dev nD) (t : Fin cfg0.N) (g : Fin 4) :
    wOf (iblk m c 3 t) g = outMajor (![a3 m c, a5 m c, a7 m c, a9 m c] g) :=
  funext fun k => funext fun j => (whole_blk3 m c t k (col4 g j)).trans (inputW m c g j k (col4 g j) rfl)

theorem uOf_blk5 (c : Dev nD) (t : Fin cfg0.N) (g : Fin 3) :
    uOf (iblk m c 5 t) g = outMajor (![a11 m c, a12 m c, a13 m c] g) :=
  funext fun k => funext fun j => (whole_blk5 m c t k (col3 g j)).trans (stateW m c g j k (col3 g j) rfl)

theorem uOf_blk6 (c : Dev nD) (t : Fin cfg0.N) (g : Fin 3) :
    uOf (iblk m c 6 t) g = outMajor (![a15 m c, a16 m c, a17 m c] g) :=
  funext fun k => funext fun j => (whole_blk6 m c t k (col3 g j)).trans (parentW m c g j k (col3 g j) rfl)

theorem bOf_blk (c : Dev nD) (t : Fin cfg0.N) (g : Fin 4) :
    bOf (iblk m c 4 t) g = vec (![a4 m c, a6 m c, a8 m c, a10 m c] g) :=
  funext fun j => (whole_blk4 m c t 0 (col4 g j)).trans (biasRow m c g j (col4 g j) rfl)

theorem sq_blk7 (c : Dev nD) (t : Fin cfg0.N) : sq (iblk m c 7 t) = outMajor (a14 m c) :=
  funext fun k => funext fun j => (whole_blk7 m c t k j).trans (candStateW m c k j)

theorem sq_blk8 (c : Dev nD) (t : Fin cfg0.N) : sq (iblk m c 8 t) = outMajor (a18 m c) :=
  funext fun k => funext fun j => (whole_blk8 m c t k j).trans (candParentW m c k j)

/-! ## What point `t` writes back -/

set_option maxHeartbeats 1000000 in
/-- Point `t` writes back block `t` of the whole batch's cell. -/
theorem flushed_eq (c : Dev nD) (t : Fin cfg0.N) :
    (dats m 0 c).flushed 9 t = ((cfg0.win 9).blk t).view.read (Elt Ideal) (result m c) := by
  show (cfg0.win 9).cut (grid0.coords t) ((dats m 0 c).after 9 t) = _
  rw [after0_9]
  unfold out0_9
  rw [View.canon_unit_zero hz]
  simp only [View.ld_unit_zero (S := S512x512) hz, View.ld_unit_zero (S := S512x2048) hz,
    View.ld_unit_zero (S := S1x2048) hz, View.ld_unit_zero (S := S512x1536) hz]
  obtain ⟨i00, i01, i10, i11, i20, i21, i30, i31, i40, i41, i50, i51, i60, i61, i70, i71, i80, i81, i90, i91⟩ := idx_facts t
  funext y
  show k0_pay1 (iblk m c 1 t)
        (k0_pay5 (iblk m c 1 t) (iblk m c 2 t) (iblk m c 0 t) (iblk m c 3 t) (iblk m c 4 t) (iblk m c 5 t) (iblk m c 6 t))
        (k0_pay6 (iblk m c 1 t) (iblk m c 2 t) (iblk m c 0 t) (iblk m c 3 t) (iblk m c 4 t) (iblk m c 5 t) (iblk m c 6 t))
        (k0_pay7 (iblk m c 1 t) (iblk m c 2 t) (iblk m c 0 t) (iblk m c 3 t) (iblk m c 4 t) (iblk m c 5 t) (iblk m c 6 t))
        (k0_pay8 (iblk m c 0 t) (iblk m c 3 t) (iblk m c 4 t)) (iblk m c 7 t) (iblk m c 8 t) y
      = result m c (((cfg0.win 9).blk t).view.emb y)
  refine (body_cell_at (iblk m c 1 t) (iblk m c 2 t) (iblk m c 0 t) (iblk m c 3 t) (iblk m c 4 t) (iblk m c 5 t)
    (iblk m c 6 t) (iblk m c 7 t) (iblk m c 8 t) y).trans ?_
  refine (cell_congr (rows_blk0 m c t) (rows_blk1 m c t) (rows_blk2 m c t)
    (wOf_blk m c t 0) (uOf_blk5 m c t 0) (uOf_blk6 m c t 0) (bOf_blk m c t 0)
    (wOf_blk m c t 1) (uOf_blk5 m c t 1) (uOf_blk6 m c t 1) (bOf_blk m c t 1)
    (wOf_blk m c t 2) (uOf_blk5 m c t 2) (uOf_blk6 m c t 2) (bOf_blk m c t 2)
    (wOf_blk m c t 3) (sq_blk7 m c t) (sq_blk8 m c t) (bOf_blk m c t 3) (y 0) (y 1)).trans ?_
  refine (cell_rows (batchRow t) (rows (a0 m c)) (rows (a1 m c)) (rows (a2 m c)) _ _ _ _ _ _ _ _ _ _ _ _ _ _ _ _ (y 0) (y 1)).trans ?_
  have e0 : (((cfg0.win 9).blk t).view.emb y) 0 = batchRow t (y 0) :=
    Fin.ext (by show win0_9.index t (0 : Fin 2) * 512 + 1 * (y 0).val = t.val * 512 + (y 0).val; omega)
  have e1 : (((cfg0.win 9).blk t).view.emb y) 1 = y 1 :=
    Fin.ext (by show win0_9.index t (1 : Fin 2) * 512 + 1 * (y 1).val = (y 1).val; omega)
  unfold result cellArr
  rw [e0, e1]
  rfl

/-! ## The blocks tile the result -/

/-- An entry is in point `t`'s block iff each coordinate is in the block's range on its axis. -/
theorem mem_blk (t : Fin cfg0.N) (i : S65536x512.Idx) :
    i ∈ ((cfg0.win 9).blk t).view.set ↔ ∀ a : Fin 2, win0_9.index t a * S512x512.size a ≤ (i a).val ∧ (i a).val < win0_9.index t a * S512x512.size a + S512x512.size a := by
  show i ∈ ((View.whole main_v15).slice (win0_9.rect t)).set ↔ _
  rw [View.set_slice_whole, Rect.mem_set_unit]
  exact Iff.rfl

/-- Row `r` is written back by point `r / 512`. -/
theorem cover (i : S65536x512.Idx) :
    ∃ t : Fin cfg0.N, (cfg0.win 9).flush t = true ∧ i ∈ ((cfg0.win 9).blk t).view.set := by
  have hi0 : (i 0).val < 65536 := (i 0).isLt
  have hi1 : (i 1).val < 512 := (i 1).isLt
  have hN : cfg0.N = 128 := N_0
  let t : Fin cfg0.N := ⟨(i 0).val / 512, by rw [hN]; omega⟩
  have htv : t.val = (i 0).val / 512 := rfl
  obtain ⟨i00, i01, i10, i11, i20, i21, i30, i31, i40, i41, i50, i51, i60, i61, i70, i71, i80, i81, i90, i91⟩ := idx_facts t
  refine ⟨t, flush0_9 t, ?_⟩
  rw [mem_blk]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 512 ≤ (i 1).val ∧ (i 1).val < win0_9.index t (1 : Fin 2) * 512 + 512; omega

/-- The result array after the run is the whole batch's cell. -/
theorem final (c : Dev nD) : (dats m 0 c).arrAt 9 cfg0.N = result m c :=
  (dats m 0 c).arrAt_eq_of_cover 9 (result m c) (fun t _ => flushed_eq m c t) (cover)

/-! ## The run, read -/

/-- Every weakly fair execution of @main terminates with the result array at the whole batch's cell of the arguments
    as launched, and the arguments unchanged. -/
theorem run : θ_run defs (onTc (τ := τ) (main (F := Ideal))) ⟨m, fun _ => 0, ρ⟩ fun r => ∀ c : Dev nD,
      r.2.mem ((c.tc : Thread nD τ).loc main_v15) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨((h c).1 9).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩)
    (run_main m ρ)

end Cert.KernelIdeal.Whole

end
-- ==== Proof.RefSide.lean ====
import proofs.«174785_j34900904247524_2_alg».proof.Proof.Gen.ReferenceIdeal.Read
import proofs.«174785_j34900904247524_2_alg».proof.Proof.Cell

/-!
# The reference, one output entry at a time

The reference forms each gate from three separate products `x · Wᵀ` with the weight matrices as stored
(output-major), adds the bias to the input product, spells the sigmoid `1 / (1 + e^(−z))`, and finishes the cell on
the whole batch at once. Read at row `r`, unit `j` it is the cell of `Cell.lean` over the whole arrays' rows: every
index the operations' readings compose is the row `r`, the unit `j` or the inner entry `k` in some order, and the unit
in the sigmoid is the float word of one.
-/

noncomputable section

namespace Cert.ReferenceIdeal.RefValue

open Cert.ReferenceIdeal Cert.ReferenceIdeal.Gen Cert.ReferenceIdeal.Read Idealize.ShloMosaic Idealize.ShloMosaic.ValueIdx Cert.TreeGru

/-! ## The composed indices: a product reads row `r` of its left operand and unit `j` of its transposed right one;
a bias laid along the rows is read at the unit. -/

theorem l1 (r : Fin 65536) (j k : Fin 512) : lidx_main_v1 (ix2 r j) k = ix2 r k :=
  funext fun a => by match a with | ⟨0, _⟩ => rfl | ⟨1, _⟩ => rfl
theorem r1 (r : Fin 65536) (j k : Fin 512) : ridx_main_v1 (ix2 r j) k = ix2 k j :=
  funext fun a => by match a with | ⟨0, _⟩ => rfl | ⟨1, _⟩ => rfl
theorem l6 (r : Fin 65536) (j k : Fin 512) : lidx_main_v6 (ix2 r j) k = ix2 r k :=
  funext fun a => by match a with | ⟨0, _⟩ => rfl | ⟨1, _⟩ => rfl
theorem r6 (r : Fin 65536) (j k : Fin 512) : ridx_main_v6 (ix2 r j) k = ix2 k j :=
  funext fun a => by match a with | ⟨0, _⟩ => rfl | ⟨1, _⟩ => rfl
theorem l9 (r : Fin 65536) (j k : Fin 512) : lidx_main_v9 (ix2 r j) k = ix2 r k :=
  funext fun a => by match a with | ⟨0, _⟩ => rfl | ⟨1, _⟩ => rfl
theorem r9 (r : Fin 65536) (j k : Fin 512) : ridx_main_v9 (ix2 r j) k = ix2 k j :=
  funext fun a => by match a with | ⟨0, _⟩ => rfl | ⟨1, _⟩ => rfl
theorem l18 (r : Fin 65536) (j k : Fin 512) : lidx_main_v18 (ix2 r j) k = ix2 r k :=
  funext fun a => by match a with | ⟨0, _⟩ => rfl | ⟨1, _⟩ => rfl
theorem r18 (r : Fin 65536) (j k : Fin 512) : ridx_main_v18 (ix2 r j) k = ix2 k j :=
  funext fun a => by match a with | ⟨0, _⟩ => rfl | ⟨1, _⟩ => rfl
theorem l23 (r : Fin 65536) (j k : Fin 512) : lidx_main_v23 (ix2 r j) k = ix2 r k :=
  funext fun a => by match a with | ⟨0, _⟩ => rfl | ⟨1, _⟩ => rfl
theorem r23 (r : Fin 65536) (j k : Fin 512) : ridx_main_v23 (ix2 r j) k = ix2 k j :=
  funext fun a => by match a with | ⟨0, _⟩ => rfl | ⟨1, _⟩ => rfl
theorem l26 (r : Fin 65536) (j k : Fin 512) : lidx_main_v26 (ix2 r j) k = ix2 r k :=
  funext fun a => by match a with | ⟨0, _⟩ => rfl | ⟨1, _⟩ => rfl
theorem r26 (r : Fin 65536) (j k : Fin 512) : ridx_main_v26 (ix2 r j) k = ix2 k j :=
  funext fun a => by match a with | ⟨0, _⟩ => rfl | ⟨1, _⟩ => rfl
theorem l35 (r : Fin 65536) (j k : Fin 512) : lidx_main_v35 (ix2 r j) k = ix2 r k :=
  funext fun a => by match a with | ⟨0, _⟩ => rfl | ⟨1, _⟩ => rfl
theorem r35 (r : Fin 65536) (j k : Fin 512) : ridx_main_v35 (ix2 r j) k = ix2 k j :=
  funext fun a => by match a with | ⟨0, _⟩ => rfl | ⟨1, _⟩ => rfl
theorem l40 (r : Fin 65536) (j k : Fin 512) : lidx_main_v40 (ix2 r j) k = ix2 r k :=
  funext fun a => by match a with | ⟨0, _⟩ => rfl | ⟨1, _⟩ => rfl
theorem r40 (r : Fin 65536) (j k : Fin 512) : ridx_main_v40 (ix2 r j) k = ix2 k j :=
  funext fun a => by match a with | ⟨0, _⟩ => rfl | ⟨1, _⟩ => rfl
theorem l43 (r : Fin 65536) (j k : Fin 512) : lidx_main_v43 (ix2 r j) k = ix2 r k :=
  funext fun a => by match a with | ⟨0, _⟩ => rfl | ⟨1, _⟩ => rfl
theorem r43 (r : Fin 65536) (j k : Fin 512) : ridx_main_v43 (ix2 r j) k = ix2 k j :=
  funext fun a => by match a with | ⟨0, _⟩ => rfl | ⟨1, _⟩ => rfl
theorem l52 (r : Fin 65536) (j k : Fin 512) : lidx_main_v52 (ix2 r j) k = ix2 r k :=
  funext fun a => by match a with | ⟨0, _⟩ => rfl | ⟨1, _⟩ => rfl
theorem r52 (r : Fin 65536) (j k : Fin 512) : ridx_main_v52 (ix2 r j) k = ix2 k j :=
  funext fun a => by match a with | ⟨0, _⟩ => rfl | ⟨1, _⟩ => rfl
theorem l58 (r : Fin 65536) (j k : Fin 512) : lidx_main_v58 (ix2 r j) k = ix2 r k :=
  funext fun a => by match a with | ⟨0, _⟩ => rfl | ⟨1, _⟩ => rfl
theorem r58 (r : Fin 65536) (j k : Fin 512) : ridx_main_v58 (ix2 r j) k = ix2 k j :=
  funext fun a => by match a with | ⟨0, _⟩ => rfl | ⟨1, _⟩ => rfl
theorem l62 (r : Fin 65536) (j k : Fin 512) : lidx_main_v62 (ix2 r j) k = ix2 r k :=
  funext fun a => by match a with | ⟨0, _⟩ => rfl | ⟨1, _⟩ => rfl
theorem r62 (r : Fin 65536) (j k : Fin 512) : ridx_main_v62 (ix2 r j) k = ix2 k j :=
  funext fun a => by match a with | ⟨0, _⟩ => rfl | ⟨1, _⟩ => rfl
theorem t0 (k j : Fin 512) : idx_main_v0 (ix2 k j) = ix2 j k :=
  funext fun a => by match a with | ⟨0, _⟩ => rfl | ⟨1, _⟩ => rfl
theorem t5 (k j : Fin 512) : idx_main_v5 (ix2 k j) = ix2 j k :=
  funext fun a => by match a with | ⟨0, _⟩ => rfl | ⟨1, _⟩ => rfl
theorem t8 (k j : Fin 512) : idx_main_v8 (ix2 k j) = ix2 j k :=
  funext fun a => by match a with | ⟨0, _⟩ => rfl | ⟨1, _⟩ => rfl
theorem t17 (k j : Fin 512) : idx_main_v17 (ix2 k j) = ix2 j k :=
  funext fun a => by match a with | ⟨0, _⟩ => rfl | ⟨1, _⟩ => rfl
theorem t22 (k j : Fin 512) : idx_main_v22 (ix2 k j) = ix2 j k :=
  funext fun a => by match a with | ⟨0, _⟩ => rfl | ⟨1, _⟩ => rfl
theorem t25 (k j : Fin 512) : idx_main_v25 (ix2 k j) = ix2 j k :=
  funext fun a => by match a with | ⟨0, _⟩ => rfl | ⟨1, _⟩ => rfl
theorem t34 (k j : Fin 512) : idx_main_v34 (ix2 k j) = ix2 j k :=
  funext fun a => by match a with | ⟨0, _⟩ => rfl | ⟨1, _⟩ => rfl
theorem t39 (k j : Fin 512) : idx_main_v39 (ix2 k j) = ix2 j k :=
  funext fun a => by match a with | ⟨0, _⟩ => rfl | ⟨1, _⟩ => rfl
theorem t42 (k j : Fin 512) : idx_main_v42 (ix2 k j) = ix2 j k :=
  funext fun a => by match a with | ⟨0, _⟩ => rfl | ⟨1, _⟩ => rfl
theorem t51 (k j : Fin 512) : idx_main_v51 (ix2 k j) = ix2 j k :=
  funext fun a => by match a with | ⟨0, _⟩ => rfl | ⟨1, _⟩ => rfl
theorem t57 (k j : Fin 512) : idx_main_v57 (ix2 k j) = ix2 j k :=
  funext fun a => by match a with | ⟨0, _⟩ => rfl | ⟨1, _⟩ => rfl
theorem t61 (k j : Fin 512) : idx_main_v61 (ix2 k j) = ix2 j k :=
  funext fun a => by match a with | ⟨0, _⟩ => rfl | ⟨1, _⟩ => rfl
theorem b3 (r : Fin 65536) (j : Fin 512) : idx_main_v3 (ix2 r j) = ix2 (0 : Fin 1) j :=
  funext fun a => by match a with | ⟨0, _⟩ => rfl | ⟨1, _⟩ => rfl
theorem b20 (r : Fin 65536) (j : Fin 512) : idx_main_v20 (ix2 r j) = ix2 (0 : Fin 1) j :=
  funext fun a => by match a with | ⟨0, _⟩ => rfl | ⟨1, _⟩ => rfl
theorem b37 (r : Fin 65536) (j : Fin 512) : idx_main_v37 (ix2 r j) = ix2 (0 : Fin 1) j :=
  funext fun a => by match a with | ⟨0, _⟩ => rfl | ⟨1, _⟩ => rfl
theorem b54 (r : Fin 65536) (j : Fin 512) : idx_main_v54 (ix2 r j) = ix2 (0 : Fin 1) j :=
  funext fun a => by match a with | ⟨0, _⟩ => rfl | ⟨1, _⟩ => rfl
theorem b2 (z : Fin 1) (j : Fin 512) : idx_main_v2 (ix2 z j) = ix1 j :=
  funext fun a => by match a with | ⟨0, _⟩ => rfl
theorem b19 (z : Fin 1) (j : Fin 512) : idx_main_v19 (ix2 z j) = ix1 j :=
  funext fun a => by match a with | ⟨0, _⟩ => rfl
theorem b36 (z : Fin 1) (j : Fin 512) : idx_main_v36 (ix2 z j) = ix1 j :=
  funext fun a => by match a with | ⟨0, _⟩ => rfl
theorem b53 (z : Fin 1) (j : Fin 512) : idx_main_v53 (ix2 z j) = ix1 j :=
  funext fun a => by match a with | ⟨0, _⟩ => rfl

/-! ## The result -/

set_option maxHeartbeats 4000000 in
set_option maxRecDepth 16384 in
/-- The reference's result at `(r, j)` is the cell over the rows of the whole arrays, each weight matrix read
    inner entry first. -/
theorem ref_cell (x0 x1 x2 : (⟨S65536x512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal)) (x11 x12 x13 x14 x15 x16 x17 x18 : (⟨S512x512, .f32⟩ : BufTy).Contents (Elt Ideal)) (r : Fin 65536) (j : Fin 512) :
    val_main_v69 (F := Ideal) x0 x1 x2 x3 x4 x5 x6 x7 x8 x9 x10 x11 x12 x13 x14 x15 x16 x17 x18 (ix2 r j)
      = cell (rows x0) (rows x1) (rows x2)
          (outMajor x3) (outMajor x11) (outMajor x15) (vec x4)
          (outMajor x5) (outMajor x12) (outMajor x16) (vec x6)
          (outMajor x7) (outMajor x13) (outMajor x17) (vec x8)
          (outMajor x9) (outMajor x14) (outMajor x18) (vec x10) r j := by
  simp only [val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_cst_apply, val_main_v13_apply, val_main_v14_apply, val_main_cst_0_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_cst_1_apply, val_main_v30_apply, val_main_v31_apply, val_main_cst_2_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_cst_3_apply, val_main_v47_apply, val_main_v48_apply, val_main_cst_4_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_cst_5_apply, val_main_v66_apply, val_main_v67_apply, val_main_v68_apply, val_main_v69_apply,
    l1, r1, l6, r6, l9, r9, l18, r18, l23, r23, l26, r26, l35, r35, l40, r40, l43, r43, l52, r52, l58, r58, l62, r62, t0, t5, t8, t17, t22, t25, t34, t39, t42, t51, t57, t61, b3, b20, b37, b54, b2, b19, b36, b53,
    Ideal.addf_def, Ideal.subf_def, Ideal.mulf_def, Ideal.hostDivf_def, Ideal.hostUnary_exp_def, Ideal.hostUnary_tanh_def,
    Ideal.hostNegf_def, Ideal.negf_def, Ideal.ofBits_def, word_one, logistic_spelt]
  rfl

/-- The reference's result array is the cell over the whole batch. -/
theorem ref_cellArr (x0 x1 x2 : (⟨S65536x512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal)) (x11 x12 x13 x14 x15 x16 x17 x18 : (⟨S512x512, .f32⟩ : BufTy).Contents (Elt Ideal)) :
    val_main_v69 (F := Ideal) x0 x1 x2 x3 x4 x5 x6 x7 x8 x9 x10 x11 x12 x13 x14 x15 x16 x17 x18
      = cellArr x0 x1 x2 x3 x4 x5 x6 x7 x8 x9 x10 x11 x12 x13 x14 x15 x16 x17 x18 := by
  funext i
  obtain ⟨r, j, rfl⟩ : ∃ (r : Fin 65536) (j : Fin 512), i = ix2 r j := ⟨i 0, i 1, eq_ix2 i⟩
  exact ref_cell x0 x1 x2 x3 x4 x5 x6 x7 x8 x9 x10 x11 x12 x13 x14 x15 x16 x17 x18 r j

end Cert.ReferenceIdeal.RefValue

end
-- ==== Proof.lean ====
/-
  A gated recurrent cell with a parent state over a batch of 65536 rows: one Pallas kernel (fused wide bf16
  products over 128 row blocks) against its plain jnp reference (twelve separate products on the whole batch).

  On the extended reals narrowing to bf16 is the identity and a product into a zero accumulator is the plain sum,
  so both programs form, for every row `r` and unit `j`, the same expression over the same sums of the same
  products in the same order: the cell of `Proof/Cell.lean`. The kernel gets there block by block — the body's
  stored block is the cell over the block's rows with each gate's columns cut from the wide tables
  (`Proof/BodyCell.lean`), the wide tables are the gates' matrices stacked, transposed and narrowed by @main before
  the region (`Proof/HostTables.lean`), and the 128 blocks tile the result (`Proof/KernelValue.lean`) — the reference
  in one pass (`Proof/RefSide.lean`, over the generated reading of its operations). The sigmoid is the kernel's one
  operation on one side and `1 / (1 + e^(−z))` with the float word of one on the other: the same function. No law of
  arithmetic beyond these readings is used, so the finiteness of the inputs is never opened.

  The three frames: each kernel program runs its host re-layings and its region to the end and writes no argument
  (`Proof/FrameK.lean` at the word level, `Proof/FrameKI.lean` on the extended reals); the reference is a straight
  line of host operations (its generated run). The idealization rewrote no operation, so it preserves trivially.
-/
import proofs.«174785_j34900904247524_2_alg».proof.Defs
import proofs.«174785_j34900904247524_2_alg».proof.Proof.Gen.Kernel
import proofs.«174785_j34900904247524_2_alg».proof.Proof.Gen.KernelIdeal
import proofs.«174785_j34900904247524_2_alg».proof.Proof.Gen.ReferenceIdeal
import proofs.«174785_j34900904247524_2_alg».proof.Proof.Gen.ReferenceIdeal.Run
import proofs.«174785_j34900904247524_2_alg».proof.Proof.Gen.ReferenceIdeal.Read
import proofs.«174785_j34900904247524_2_alg».proof.Proof.Gen.Pre_finite_inputs
import proofs.«174785_j34900904247524_2_alg».proof.Proof.FrameK
import proofs.«174785_j34900904247524_2_alg».proof.Proof.FrameKI
import proofs.«174785_j34900904247524_2_alg».proof.Proof.KernelValue
import proofs.«174785_j34900904247524_2_alg».proof.Proof.RefSide
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- So does the kernel program read on the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference is a straight line of host operations: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the whole batch's cell of the arguments, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18⟩ := hagree c
  rw [Cert.ReferenceIdeal.Read.val_main_v69_eq, Cert.ReferenceIdeal.RefValue.ref_cellArr, h0, h1, h2, h3, h4, h5, h6, h7, h8, h9, h10, h11, h12, h13, h14, h15, h16, h17, h18]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
